-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x64x28x28 : Shape := ⟨4, ![4, 64, 28, 28]⟩
abbrev S128x64x3x3 : Shape := ⟨4, ![128, 64, 3, 3]⟩
abbrev S_ : Shape := ⟨0, ![]⟩

class Facts : Prop where
  bcast_S_S4x64x28x28 : S_.BroadcastsInDim S4x64x28x28 (![] : Fin 0 → Fin S4x64x28x28.rank)
  reducesTo_S4x64x28x28_S_d0_1_2_3 : S4x64x28x28.ReducesTo [0, 1, 2, 3] S_
  h_S_ : 0 < S_.numel
  bcast_S_S128x64x3x3 : S_.BroadcastsInDim S128x64x3x3 (![] : Fin 0 → Fin S128x64x3x3.rank)
  reducesTo_S128x64x3x3_S_d0_1_2_3 : S128x64x3x3.ReducesTo [0, 1, 2, 3] S_

variable [Facts]

def fn {F : FTy → Type} [FloatOps F] (main_arg0 : FVec F S4x64x28x28 .f32) (main_arg1 : FVec F S128x64x3x3 .f32) : IVec S_ 1 :=
  let main_v0 : FVec F S4x64x28x28 .f32 := Host.absf main_arg0
  let main_cst : FVec F S_ .f32 := constant S_ .f32 0x7F800000#32
  let main_v1 : FVec F S4x64x28x28 .f32 := broadcastInDim S4x64x28x28 ![] bcast_S_S4x64x28x28 main_cst
  let main_v2 : IVec S4x64x28x28 1 := cmpf .olt main_v0 main_v1
  let main_c : IVec S_ 1 := constantI S_ 1 1#1
  let main_v3 : IVec S_ 1 := (fun x v => Host.reduce IntOp.andi x v reducesTo_S4x64x28x28_S_d0_1_2_3 h_S_) main_v2 main_c
  let main_v4 : FVec F S128x64x3x3 .f32 := Host.absf main_arg1
  let main_cst_0 : FVec F S_ .f32 := constant S_ .f32 0x7F800000#32
  let main_v5 : FVec F S128x64x3x3 .f32 := broadcastInDim S128x64x3x3 ![] bcast_S_S128x64x3x3 main_cst_0
  let main_v6 : IVec S128x64x3x3 1 := cmpf .olt main_v4 main_v5
  let main_c_1 : IVec S_ 1 := constantI S_ 1 1#1
  let main_v7 : IVec S_ 1 := (fun x v => Host.reduce IntOp.andi x v reducesTo_S128x64x3x3_S_d0_1_2_3 h_S_) main_v6 main_c_1
  let main_v8 : IVec S_ 1 := andi main_v3 main_v7
  main_v8
-- ==== Kernel.lean ====
abbrev S4x64x28x28 : Shape := ⟨4, ![4, 64, 28, 28]⟩
abbrev S128x64x3x3 : Shape := ⟨4, ![128, 64, 3, 3]⟩
abbrev S_ : Shape := ⟨0, ![]⟩
abbrev S4x64x30x30 : Shape := ⟨4, ![4, 64, 30, 30]⟩
abbrev S4x64x784 : Shape := ⟨3, ![4, 64, 784]⟩
abbrev S4x64x1x784 : Shape := ⟨4, ![4, 64, 1, 784]⟩
abbrev S4x64x9x784 : Shape := ⟨4, ![4, 64, 9, 784]⟩
abbrev S64x128x3x3 : Shape := ⟨4, ![64, 128, 3, 3]⟩
abbrev S64x128x9 : Shape := ⟨3, ![64, 128, 9]⟩
abbrev S4x128x784 : Shape := ⟨3, ![4, 128, 784]⟩
abbrev S1x64x9x784 : Shape := ⟨4, ![1, 64, 9, 784]⟩
abbrev S1x128x784 : Shape := ⟨3, ![1, 128, 784]⟩
abbrev S128x784 : Shape := ⟨2, ![128, 784]⟩
abbrev S1x1x9x784 : Shape := ⟨4, ![1, 1, 9, 784]⟩
abbrev S9x784 : Shape := ⟨2, ![9, 784]⟩
abbrev S1x128x9 : Shape := ⟨3, ![1, 128, 9]⟩
abbrev S128x9 : Shape := ⟨2, ![128, 9]⟩
abbrev S1x784 : Shape := ⟨2, ![1, 784]⟩
abbrev S784 : Shape := ⟨1, ![784]⟩
abbrev S128x1 : Shape := ⟨2, ![128, 1]⟩
abbrev S128 : Shape := ⟨1, ![128]⟩
abbrev S4x128x28x28 : Shape := ⟨4, ![4, 128, 28, 28]⟩

abbrev nBuf : Space → Nat
  | .hbm => 37
  | .vmem => 5
  | .smem => 0
  | _ => 0

abbrev bufTy : (tb : Table) → Fin (tcTables nBuf tb) → BufTy
  | .hbm, ⟨0, _⟩ => ⟨S4x64x28x28, .f32⟩
  | .hbm, ⟨1, _⟩ => ⟨S128x64x3x3, .f32⟩
  | .hbm, ⟨2, _⟩ => ⟨S_, .i32⟩
  | .hbm, ⟨3, _⟩ => ⟨S_, .f32⟩
  | .hbm, ⟨4, _⟩ => ⟨S4x64x30x30, .f32⟩
  | .hbm, ⟨5, _⟩ => ⟨S4x64x28x28, .f32⟩
  | .hbm, ⟨6, _⟩ => ⟨S4x64x784, .f32⟩
  | .hbm, ⟨7, _⟩ => ⟨S4x64x28x28, .f32⟩
  | .hbm, ⟨8, _⟩ => ⟨S4x64x784, .f32⟩
  | .hbm, ⟨9, _⟩ => ⟨S4x64x28x28, .f32⟩
  | .hbm, ⟨10, _⟩ => ⟨S4x64x784, .f32⟩
  | .hbm, ⟨11, _⟩ => ⟨S4x64x28x28, .f32⟩
  | .hbm, ⟨12, _⟩ => ⟨S4x64x784, .f32⟩
  | .hbm, ⟨13, _⟩ => ⟨S4x64x28x28, .f32⟩
  | .hbm, ⟨14, _⟩ => ⟨S4x64x784, .f32⟩
  | .hbm, ⟨15, _⟩ => ⟨S4x64x28x28, .f32⟩
  | .hbm, ⟨16, _⟩ => ⟨S4x64x784, .f32⟩
  | .hbm, ⟨17, _⟩ => ⟨S4x64x28x28, .f32⟩
  | .hbm, ⟨18, _⟩ => ⟨S4x64x784, .f32⟩
  | .hbm, ⟨19, _⟩ => ⟨S4x64x28x28, .f32⟩
  | .hbm, ⟨20, _⟩ => ⟨S4x64x784, .f32⟩
  | .hbm, ⟨21, _⟩ => ⟨S4x64x28x28, .f32⟩
  | .hbm, ⟨22, _⟩ => ⟨S4x64x784, .f32⟩
  | .hbm, ⟨23, _⟩ => ⟨S4x64x1x784, .f32⟩
  | .hbm, ⟨24, _⟩ => ⟨S4x64x1x784, .f32⟩
  | .hbm, ⟨25, _⟩ => ⟨S4x64x1x784, .f32⟩
  | .hbm, ⟨26, _⟩ => ⟨S4x64x1x784, .f32⟩
  | .hbm, ⟨27, _⟩ => ⟨S4x64x1x784, .f32⟩
  | .hbm, ⟨28, _⟩ => ⟨S4x64x1x784, .f32⟩
  | .hbm, ⟨29, _⟩ => ⟨S4x64x1x784, .f32⟩
  | .hbm, ⟨30, _⟩ => ⟨S4x64x1x784, .f32⟩
  | .hbm, ⟨31, _⟩ => ⟨S4x64x1x784, .f32⟩
  | .hbm, ⟨32, _⟩ => ⟨S4x64x9x784, .f32⟩
  | .hbm, ⟨33, _⟩ => ⟨S64x128x3x3, .f32⟩
  | .hbm, ⟨34, _⟩ => ⟨S64x128x9, .f32⟩
  | .hbm, ⟨35, _⟩ => ⟨S4x128x784, .f32⟩
  | .hbm, ⟨36, _⟩ => ⟨S4x128x28x28, .f32⟩
  | .local _ .vmem, ⟨0, _⟩ => ⟨S1x64x9x784, .f32⟩
  | .local _ .vmem, ⟨1, _⟩ => ⟨S1x64x9x784, .f32⟩
  | .local _ .vmem, ⟨2, _⟩ => ⟨S64x128x9, .f32⟩
  | .local _ .vmem, ⟨3, _⟩ => ⟨S1x128x784, .f32⟩
  | .local _ .vmem, ⟨4, _⟩ => ⟨S1x128x784, .f32⟩
  | _, _ => ⟨S4x64x28x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c64_i32 : BitVec 32 := 64#32
  let v4 : BitVec 32 := Scalar.addi c0_i32 c64_i32
  let c1_i32 : BitVec 32 := 1#32
  ⟨c0_i32, v4, c1_i32⟩
def k0_off1 (k0_t1 : Fin k0_t1_loop.trips) : Fin 4 → Nat :=
  let c0_10 : Index := 0#32
  let c0_i32 : BitVec 32 := 0#32
  let c1_i32 : BitVec 32 := 1#32
  let arg4 : BitVec 32 := Scf.iv c0_i32 c1_i32 k0_t1
  let v12 : Index := Scalar.indexCast arg4
  let c0_11 : Index := 0#32
  let c0_12 : Index := 0#32
  ![0, v12.toNat, 0, 0]
def k0_off2 (k0_t1 : Fin k0_t1_loop.trips) : Fin 3 → Nat :=
  let c0_i32 : BitVec 32 := 0#32
  let c1_i32 : BitVec 32 := 1#32
  let arg4 : BitVec 32 := Scf.iv c0_i32 c1_i32 k0_t1
  let v15 : Index := Scalar.indexCast arg4
  let c0_13 : Index := 0#32
  let c0_14 : Index := 0#32
  ![v15.toNat, 0, 0]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x9x784 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128x9 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x128x784 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  pads_S4x64x28x28_S4x64x30x30_000_000_110_110 : S4x64x28x28.Pads (![0, 0, 1, 1] : Fin 4 → Nat) ![0, 0, 1, 1] ![0, 0, 0, 0] S4x64x30x30
  h_S_ : 0 < S_.numel
  slices_S4x64x30x30_S4x64x28x28_0_0_0_0 : S4x64x30x30.Slices ![0, 0, 0, 0] S4x64x28x28
  shapeCasts_S4x64x28x28_S4x64x784 : S4x64x28x28.ShapeCasts S4x64x784
  slices_S4x64x30x30_S4x64x28x28_0_0_0_1 : S4x64x30x30.Slices ![0, 0, 0, 1] S4x64x28x28
  slices_S4x64x30x30_S4x64x28x28_0_0_0_2 : S4x64x30x30.Slices ![0, 0, 0, 2] S4x64x28x28
  slices_S4x64x30x30_S4x64x28x28_0_0_1_0 : S4x64x30x30.Slices ![0, 0, 1, 0] S4x64x28x28
  slices_S4x64x30x30_S4x64x28x28_0_0_1_1 : S4x64x30x30.Slices ![0, 0, 1, 1] S4x64x28x28
  slices_S4x64x30x30_S4x64x28x28_0_0_1_2 : S4x64x30x30.Slices ![0, 0, 1, 2] S4x64x28x28
  slices_S4x64x30x30_S4x64x28x28_0_0_2_0 : S4x64x30x30.Slices ![0, 0, 2, 0] S4x64x28x28
  slices_S4x64x30x30_S4x64x28x28_0_0_2_1 : S4x64x30x30.Slices ![0, 0, 2, 1] S4x64x28x28
  slices_S4x64x30x30_S4x64x28x28_0_0_2_2 : S4x64x30x30.Slices ![0, 0, 2, 2] S4x64x28x28
  bcast_S4x64x784_S4x64x1x784_0_1_3 : S4x64x784.BroadcastsInDim S4x64x1x784 (![0, 1, 3] : Fin 3 → Fin S4x64x1x784.rank)
  concatenates_S4x64x1x784_S4x64x1x784_S4x64x1x784_S4x64x1x784_S4x64x1x784_S4x64x1x784_S4x64x1x784_S4x64x1x784_S4x64x1x784_S4x64x9x784_d2 : Shape.Concatenates [S4x64x1x784, S4x64x1x784, S4x64x1x784, S4x64x1x784, S4x64x1x784, S4x64x1x784, S4x64x1x784, S4x64x1x784, S4x64x1x784] S4x64x9x784 2
  transposes_S128x64x3x3_S64x128x3x3_1_0_2_3 : S128x64x3x3.Transposes [1, 0, 2, 3] S64x128x3x3
  shapeCasts_S64x128x3x3_S64x128x9 : S64x128x3x3.ShapeCasts S64x128x9
  inb_S1x128x784_S1x128x784_0_0_0 : ∀ a, (![0, 0, 0] : Fin 3 → Nat) a + S1x128x784.size a ≤ S1x128x784.size a
  h_S1x128x784 : 0 < S1x128x784.numel
  shapeCasts_S1x128x784_S128x784 : S1x128x784.ShapeCasts S128x784
  shapeCasts_S128x784_S1x128x784 : S128x784.ShapeCasts S1x128x784
  h_S1x1x9x784 : 0 < S1x1x9x784.numel
  shapeCasts_S1x1x9x784_S9x784 : S1x1x9x784.ShapeCasts S9x784
  h_S1x128x9 : 0 < S1x128x9.numel
  shapeCasts_S1x128x9_S128x9 : S1x128x9.ShapeCasts S128x9
  slices_S9x784_o0_0_S1x784 : S9x784.Slices ![0, 0] S1x784
  shapeCasts_S1x784_S784 : S1x784.ShapeCasts S784
  slices_S128x9_o0_0_S128x1 : S128x9.Slices ![0, 0] S128x1
  shapeCasts_S128x1_S128 : S128x1.ShapeCasts S128
  shapeCasts_S784_S1x784 : S784.ShapeCasts S1x784
  shapeCasts_S1x784_S1x784 : S1x784.ShapeCasts S1x784
  broadcasts_S1x784_S128x784 : S1x784.Broadcasts S128x784
  shapeCasts_S128_S128x1 : S128.ShapeCasts S128x1
  shapeCasts_S128x1_S128x1 : S128x1.ShapeCasts S128x1
  broadcasts_S128x1_S128x784 : S128x1.Broadcasts S128x784
  slices_S9x784_o1_0_S1x784 : S9x784.Slices ![1, 0] S1x784
  slices_S128x9_o0_1_S128x1 : S128x9.Slices ![0, 1] S128x1
  slices_S9x784_o2_0_S1x784 : S9x784.Slices ![2, 0] S1x784
  slices_S128x9_o0_2_S128x1 : S128x9.Slices ![0, 2] S128x1
  slices_S9x784_o3_0_S1x784 : S9x784.Slices ![3, 0] S1x784
  slices_S128x9_o0_3_S128x1 : S128x9.Slices ![0, 3] S128x1
  slices_S9x784_o4_0_S1x784 : S9x784.Slices ![4, 0] S1x784
  slices_S128x9_o0_4_S128x1 : S128x9.Slices ![0, 4] S128x1
  slices_S9x784_o5_0_S1x784 : S9x784.Slices ![5, 0] S1x784
  slices_S128x9_o0_5_S128x1 : S128x9.Slices ![0, 5] S128x1
  slices_S9x784_o6_0_S1x784 : S9x784.Slices ![6, 0] S1x784
  slices_S128x9_o0_6_S128x1 : S128x9.Slices ![0, 6] S128x1
  slices_S9x784_o7_0_S1x784 : S9x784.Slices ![7, 0] S1x784
  slices_S128x9_o0_7_S128x1 : S128x9.Slices ![0, 7] S128x1
  slices_S9x784_o8_0_S1x784 : S9x784.Slices ![8, 0] S1x784
  slices_S128x9_o0_8_S128x1 : S128x9.Slices ![0, 8] S128x1
  shapeCasts_S4x128x784_S4x128x28x28 : S4x128x784.ShapeCasts S4x128x28x28
  hrank0 : 0 < grid0.rank
  k0_t1_ok : k0_t1_loop.OK
  k0_off1_inb : ∀ k0_t1 : Fin k0_t1_loop.trips, ∀ a, (k0_off1 k0_t1) a + S1x1x9x784.size a ≤ S1x64x9x784.size a
  k0_off2_inb : ∀ k0_t1 : Fin k0_t1_loop.trips, ∀ a, (k0_off2 k0_t1) a + S1x128x9.size a ≤ S64x128x9.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x9x784.size a ≤ S4x64x9x784.size a
  hwx0_0 : ∀ i : grid0.Coords, EltTy.bits .f32 = 32 ∨ (Rect.block (s := S4x64x9x784) S1x64x9x784.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128x9.size a ≤ S64x128x9.size a
  hwx0_1 : ∀ i : grid0.Coords, EltTy.bits .f32 = 32 ∨ (Rect.block (s := S64x128x9) S64x128x9.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x784.size a ≤ S4x128x784.size a
  hwx0_2 : ∀ i : grid0.Coords, EltTy.bits .f32 = 32 ∨ (Rect.block (s := S4x128x784) S1x128x784.size (cc0_transform_2 i) (hinb0_2 i)).WholeWords (EltTy.packing .f32)

variable [Facts₀]

abbrev win0_0 : Pipeline.Window sig grid0 :=
  Pipeline.Window.ofSpec (Memref.whole main_v28) S1x64x9x784.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v30) S64x128x9.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S1x128x784.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x64x28x28 : Shape := ⟨4, ![4, 64, 28, 28]⟩
abbrev S128x64x3x3 : Shape := ⟨4, ![128, 64, 3, 3]⟩
abbrev S_ : Shape := ⟨0, ![]⟩
abbrev S4x64x30x30 : Shape := ⟨4, ![4, 64, 30, 30]⟩
abbrev S4x128x28x28 : Shape := ⟨4, ![4, 128, 28, 28]⟩
abbrev S128x64x1x1 : Shape := ⟨4, ![128, 64, 1, 1]⟩
abbrev S128x64 : Shape := ⟨2, ![128, 64]⟩
abbrev S4x1x64x28x28 : Shape := ⟨5, ![4, 1, 64, 28, 28]⟩
abbrev S1x128x64x1x1 : Shape := ⟨5, ![1, 128, 64, 1, 1]⟩
abbrev S4x128x64x28x28 : Shape := ⟨5, ![4, 128, 64, 28, 28]⟩

abbrev nBuf : Space → Nat
  | .hbm => 116
  | .vmem => 0
  | .smem => 0
  | _ => 0

abbrev bufTy : (tb : Table) → Fin (tcTables nBuf tb) → BufTy
  | .hbm, ⟨0, _⟩ => ⟨S4x64x28x28, .f32⟩
  | .hbm, ⟨1, _⟩ => ⟨S128x64x3x3, .f32⟩
  | .hbm, ⟨2, _⟩ => ⟨S_, .i32⟩
  | .hbm, ⟨3, _⟩ => ⟨S_, .f32⟩
  | .hbm, ⟨4, _⟩ => ⟨S4x64x30x30, .f32⟩
  | .hbm, ⟨5, _⟩ => ⟨S_, .f32⟩
  | .hbm, ⟨6, _⟩ => ⟨S4x128x28x28, .f32⟩
  | .hbm, ⟨7, _⟩ => ⟨S4x64x28x28, .f32⟩
  | .hbm, ⟨8, _⟩ => ⟨S128x64x1x1, .f32⟩
  | .hbm, ⟨9, _⟩ => ⟨S128x64, .f32⟩
  | .hbm, ⟨10, _⟩ => ⟨S4x1x64x28x28, .f32⟩
  | .hbm, ⟨11, _⟩ => ⟨S1x128x64x1x1, .f32⟩
  | .hbm, ⟨12, _⟩ => ⟨S4x128x64x28x28, .f32⟩
  | .hbm, ⟨13, _⟩ => ⟨S4x128x64x28x28, .f32⟩
  | .hbm, ⟨14, _⟩ => ⟨S4x128x64x28x28, .f32⟩
  | .hbm, ⟨15, _⟩ => ⟨S4x128x64x28x28, .f32⟩
  | .hbm, ⟨16, _⟩ => ⟨S_, .f32⟩
  | .hbm, ⟨17, _⟩ => ⟨S4x128x28x28, .f32⟩
  | .hbm, ⟨18, _⟩ => ⟨S4x128x28x28, .f32⟩
  | .hbm, ⟨19, _⟩ => ⟨S4x64x28x28, .f32⟩
  | .hbm, ⟨20, _⟩ => ⟨S128x64x1x1, .f32⟩
  | .hbm, ⟨21, _⟩ => ⟨S128x64, .f32⟩
  | .hbm, ⟨22, _⟩ => ⟨S4x1x64x28x28, .f32⟩
  | .hbm, ⟨23, _⟩ => ⟨S1x128x64x1x1, .f32⟩
  | .hbm, ⟨24, _⟩ => ⟨S4x128x64x28x28, .f32⟩
  | .hbm, ⟨25, _⟩ => ⟨S4x128x64x28x28, .f32⟩
  | .hbm, ⟨26, _⟩ => ⟨S4x128x64x28x28, .f32⟩
  | .hbm, ⟨27, _⟩ => ⟨S4x128x64x28x28, .f32⟩
  | .hbm, ⟨28, _⟩ => ⟨S_, .f32⟩
  | .hbm, ⟨29, _⟩ => ⟨S4x128x28x28, .f32⟩
  | .hbm, ⟨30, _⟩ => ⟨S4x128x28x28, .f32⟩
  | .hbm, ⟨31, _⟩ => ⟨S4x64x28x28, .f32⟩
  | .hbm, ⟨32, _⟩ => ⟨S128x64x1x1, .f32⟩
  | .hbm, ⟨33, _⟩ => ⟨S128x64, .f32⟩
  | .hbm, ⟨34, _⟩ => ⟨S4x1x64x28x28, .f32⟩
  | .hbm, ⟨35, _⟩ => ⟨S1x128x64x1x1, .f32⟩
  | .hbm, ⟨36, _⟩ => ⟨S4x128x64x28x28, .f32⟩
  | .hbm, ⟨37, _⟩ => ⟨S4x128x64x28x28, .f32⟩
  | .hbm, ⟨38, _⟩ => ⟨S4x128x64x28x28, .f32⟩
  | .hbm, ⟨39, _⟩ => ⟨S4x128x64x28x28, .f32⟩
  | .hbm, ⟨40, _⟩ => ⟨S_, .f32⟩
  | .hbm, ⟨41, _⟩ => ⟨S4x128x28x28, .f32⟩
  | .hbm, ⟨42, _⟩ => ⟨S4x128x28x28, .f32⟩
  | .hbm, ⟨43, _⟩ => ⟨S4x64x28x28, .f32⟩
  | .hbm, ⟨44, _⟩ => ⟨S128x64x1x1, .f32⟩
  | .hbm, ⟨45, _⟩ => ⟨S128x64, .f32⟩
  | .hbm, ⟨46, _⟩ => ⟨S4x1x64x28x28, .f32⟩
  | .hbm, ⟨47, _⟩ => ⟨S1x128x64x1x1, .f32⟩
  | .hbm, ⟨48, _⟩ => ⟨S4x128x64x28x28, .f32⟩
  | .hbm, ⟨49, _⟩ => ⟨S4x128x64x28x28, .f32⟩
  | .hbm, ⟨50, _⟩ => ⟨S4x128x64x28x28, .f32⟩
  | .hbm, ⟨51, _⟩ => ⟨S4x128x64x28x28, .f32⟩
  | .hbm, ⟨52, _⟩ => ⟨S_, .f32⟩
  | .hbm, ⟨53, _⟩ => ⟨S4x128x28x28, .f32⟩
  | .hbm, ⟨54, _⟩ => ⟨S4x128x28x28, .f32⟩
  | .hbm, ⟨55, _⟩ => ⟨S4x64x28x28, .f32⟩
  | .hbm, ⟨56, _⟩ => ⟨S128x64x1x1, .f32⟩
  | .hbm, ⟨57, _⟩ => ⟨S128x64, .f32⟩
  | .hbm, ⟨58, _⟩ => ⟨S4x1x64x28x28, .f32⟩
  | .hbm, ⟨59, _⟩ => ⟨S1x128x64x1x1, .f32⟩
  | .hbm, ⟨60, _⟩ => ⟨S4x128x64x28x28, .f32⟩
  | .hbm, ⟨61, _⟩ => ⟨S4x128x64x28x28, .f32⟩
  | .hbm, ⟨62, _⟩ => ⟨S4x128x64x28x28, .f32⟩
  | .hbm, ⟨63, _⟩ => ⟨S4x128x64x28x28, .f32⟩
  | .hbm, ⟨64, _⟩ => ⟨S_, .f32⟩
  | .hbm, ⟨65, _⟩ => ⟨S4x128x28x28, .f32⟩
  | .hbm, ⟨66, _⟩ => ⟨S4x128x28x28, .f32⟩
  | .hbm, ⟨67, _⟩ => ⟨S4x64x28x28, .f32⟩
  | .hbm, ⟨68, _⟩ => ⟨S128x64x1x1, .f32⟩
  | .hbm, ⟨69, _⟩ => ⟨S128x64, .f32⟩
  | .hbm, ⟨70, _⟩ => ⟨S4x1x64x28x28, .f32⟩
  | .hbm, ⟨71, _⟩ => ⟨S1x128x64x1x1, .f32⟩
  | .hbm, ⟨72, _⟩ => ⟨S4x128x64x28x28, .f32⟩
  | .hbm, ⟨73, _⟩ => ⟨S4x128x64x28x28, .f32⟩
  | .hbm, ⟨74, _⟩ => ⟨S4x128x64x28x28, .f32⟩
  | .hbm, ⟨75, _⟩ => ⟨S4x128x64x28x28, .f32⟩
  | .hbm, ⟨76, _⟩ => ⟨S_, .f32⟩
  | .hbm, ⟨77, _⟩ => ⟨S4x128x28x28, .f32⟩
  | .hbm, ⟨78, _⟩ => ⟨S4x128x28x28, .f32⟩
  | .hbm, ⟨79, _⟩ => ⟨S4x64x28x28, .f32⟩
  | .hbm, ⟨80, _⟩ => ⟨S128x64x1x1, .f32⟩
  | .hbm, ⟨81, _⟩ => ⟨S128x64, .f32⟩
  | .hbm, ⟨82, _⟩ => ⟨S4x1x64x28x28, .f32⟩
  | .hbm, ⟨83, _⟩ => ⟨S1x128x64x1x1, .f32⟩
  | .hbm, ⟨84, _⟩ => ⟨S4x128x64x28x28, .f32⟩
  | .hbm, ⟨85, _⟩ => ⟨S4x128x64x28x28, .f32⟩
  | .hbm, ⟨86, _⟩ => ⟨S4x128x64x28x28, .f32⟩
  | .hbm, ⟨87, _⟩ => ⟨S4x128x64x28x28, .f32⟩
  | .hbm, ⟨88, _⟩ => ⟨S_, .f32⟩
  | .hbm, ⟨89, _⟩ => ⟨S4x128x28x28, .f32⟩
  | .hbm, ⟨90, _⟩ => ⟨S4x128x28x28, .f32⟩
  | .hbm, ⟨91, _⟩ => ⟨S4x64x28x28, .f32⟩
  | .hbm, ⟨92, _⟩ => ⟨S128x64x1x1, .f32⟩
  | .hbm, ⟨93, _⟩ => ⟨S128x64, .f32⟩
  | .hbm, ⟨94, _⟩ => ⟨S4x1x64x28x28, .f32⟩
  | .hbm, ⟨95, _⟩ => ⟨S1x128x64x1x1, .f32⟩
  | .hbm, ⟨96, _⟩ => ⟨S4x128x64x28x28, .f32⟩
  | .hbm, ⟨97, _⟩ => ⟨S4x128x64x28x28, .f32⟩
  | .hbm, ⟨98, _⟩ => ⟨S4x128x64x28x28, .f32⟩
  | .hbm, ⟨99, _⟩ => ⟨S4x128x64x28x28, .f32⟩
  | .hbm, ⟨100, _⟩ => ⟨S_, .f32⟩
  | .hbm, ⟨101, _⟩ => ⟨S4x128x28x28, .f32⟩
  | .hbm, ⟨102, _⟩ => ⟨S4x128x28x28, .f32⟩
  | .hbm, ⟨103, _⟩ => ⟨S4x64x28x28, .f32⟩
  | .hbm, ⟨104, _⟩ => ⟨S128x64x1x1, .f32⟩
  | .hbm, ⟨105, _⟩ => ⟨S128x64, .f32⟩
  | .hbm, ⟨106, _⟩ => ⟨S4x1x64x28x28, .f32⟩
  | .hbm, ⟨107, _⟩ => ⟨S1x128x64x1x1, .f32⟩
  | .hbm, ⟨108, _⟩ => ⟨S4x128x64x28x28, .f32⟩
  | .hbm, ⟨109, _⟩ => ⟨S4x128x64x28x28, .f32⟩
  | .hbm, ⟨110, _⟩ => ⟨S4x128x64x28x28, .f32⟩
  | .hbm, ⟨111, _⟩ => ⟨S4x128x64x28x28, .f32⟩
  | .hbm, ⟨112, _⟩ => ⟨S_, .f32⟩
  | .hbm, ⟨113, _⟩ => ⟨S4x128x28x28, .f32⟩
  | .hbm, ⟨114, _⟩ => ⟨S4x128x28x28, .f32⟩
  | .hbm, ⟨115, _⟩ => ⟨S4x128x28x28, .f32⟩
  | _, _ => ⟨S4x64x28x28, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_1 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_cst_2 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_cst_3 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_cst_4 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_cst_5 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_cst_6 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_cst_7 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_cst_8 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩

abbrev nD : Nat := 1
abbrev τ : Topo := Topo.v7x

variable {F : FTy → Type} [FloatOps F]

class Facts₀ : Prop where
  pads_S4x64x28x28_S4x64x30x30_000_000_110_110 : S4x64x28x28.Pads (![0, 0, 1, 1] : Fin 4 → Nat) ![0, 0, 1, 1] ![0, 0, 0, 0] S4x64x30x30
  h_S_ : 0 < S_.numel
  bcast_S_S4x128x28x28 : S_.BroadcastsInDim S4x128x28x28 (![] : Fin 0 → Fin S4x128x28x28.rank)
  slices_S4x64x30x30_S4x64x28x28_0_0_0_0 : S4x64x30x30.Slices ![0, 0, 0, 0] S4x64x28x28
  slices_S128x64x3x3_S128x64x1x1_0_0_0_0 : S128x64x3x3.Slices ![0, 0, 0, 0] S128x64x1x1
  shapeCasts_S128x64x1x1_S128x64 : S128x64x1x1.ShapeCasts S128x64
  bcast_S4x64x28x28_S4x1x64x28x28_0_2_3_4 : S4x64x28x28.BroadcastsInDim S4x1x64x28x28 (![0, 2, 3, 4] : Fin 4 → Fin S4x1x64x28x28.rank)
  bcast_S128x64_S1x128x64x1x1_1_2 : S128x64.BroadcastsInDim S1x128x64x1x1 (![1, 2] : Fin 2 → Fin S1x128x64x1x1.rank)
  bcast_S4x1x64x28x28_S4x128x64x28x28_0_1_2_3_4 : S4x1x64x28x28.BroadcastsInDim S4x128x64x28x28 (![0, 1, 2, 3, 4] : Fin 5 → Fin S4x128x64x28x28.rank)
  bcast_S1x128x64x1x1_S4x128x64x28x28_0_1_2_3_4 : S1x128x64x1x1.BroadcastsInDim S4x128x64x28x28 (![0, 1, 2, 3, 4] : Fin 5 → Fin S4x128x64x28x28.rank)
  reducesTo_S4x128x64x28x28_S4x128x28x28_d2 : S4x128x64x28x28.ReducesTo [2] S4x128x28x28
  slices_S4x64x30x30_S4x64x28x28_0_0_0_1 : S4x64x30x30.Slices ![0, 0, 0, 1] S4x64x28x28
  slices_S128x64x3x3_S128x64x1x1_0_0_0_1 : S128x64x3x3.Slices ![0, 0, 0, 1] S128x64x1x1
  slices_S4x64x30x30_S4x64x28x28_0_0_0_2 : S4x64x30x30.Slices ![0, 0, 0, 2] S4x64x28x28
  slices_S128x64x3x3_S128x64x1x1_0_0_0_2 : S128x64x3x3.Slices ![0, 0, 0, 2] S128x64x1x1
  slices_S4x64x30x30_S4x64x28x28_0_0_1_0 : S4x64x30x30.Slices ![0, 0, 1, 0] S4x64x28x28
  slices_S128x64x3x3_S128x64x1x1_0_0_1_0 : S128x64x3x3.Slices ![0, 0, 1, 0] S128x64x1x1
  slices_S4x64x30x30_S4x64x28x28_0_0_1_1 : S4x64x30x30.Slices ![0, 0, 1, 1] S4x64x28x28
  slices_S128x64x3x3_S128x64x1x1_0_0_1_1 : S128x64x3x3.Slices ![0, 0, 1, 1] S128x64x1x1
  slices_S4x64x30x30_S4x64x28x28_0_0_1_2 : S4x64x30x30.Slices ![0, 0, 1, 2] S4x64x28x28
  slices_S128x64x3x3_S128x64x1x1_0_0_1_2 : S128x64x3x3.Slices ![0, 0, 1, 2] S128x64x1x1
  slices_S4x64x30x30_S4x64x28x28_0_0_2_0 : S4x64x30x30.Slices ![0, 0, 2, 0] S4x64x28x28
  slices_S128x64x3x3_S128x64x1x1_0_0_2_0 : S128x64x3x3.Slices ![0, 0, 2, 0] S128x64x1x1
  slices_S4x64x30x30_S4x64x28x28_0_0_2_1 : S4x64x30x30.Slices ![0, 0, 2, 1] S4x64x28x28
  slices_S128x64x3x3_S128x64x1x1_0_0_2_1 : S128x64x3x3.Slices ![0, 0, 2, 1] S128x64x1x1
  slices_S4x64x30x30_S4x64x28x28_0_0_2_2 : S4x64x30x30.Slices ![0, 0, 2, 2] S4x64x28x28
  slices_S128x64x3x3_S128x64x1x1_0_0_2_2 : S128x64x3x3.Slices ![0, 0, 2, 2] S128x64x1x1

variable [Facts₀]

class Facts : Prop extends Facts₀ where

variable [Facts]
-- ==== Proof.KitK.lean ====
/-
  The kernel program as printed: the program around its one kernel region.

  The program is three stretches of host operations (a constant; the zero padding of the input; the nine shifted
  windows of the padded input laid side by side, and the weight with its first two axes exchanged), then the kernel
  region over a grid of four points, then one host operation reshaping the region's result.  Here: the contents of the
  device's buffers when the region is entered (the fold of the three stretches over the launch memory), the statement
  that the program is those stretches, the region, and the last stretch; that no host operation writes an argument
  array, before or after the region; each window's block at a grid point; and the frame claim read off a run to the
  region's post.
-/
import proofs.«133957_j41729902248401_2_alg».proof.Proof.Gen.Kernel.Launch
import proofs.«133957_j41729902248401_2_alg».proof.Proof.Gen.Kernel.Skeleton
import proofs.«133957_j41729902248401_2_alg».proof.Proof.Gen.Kernel.Loops
import proofs.«133957_j41729902248401_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- The device's buffers when the region is entered: the launch memory after the three stretches of host operations. -/
abbrev V0 (c : Dev nD) : Valuation τ sig (Elt F) := StableHlo.after (List.flatten [hostOps0, hostOps0_1, hostOps0_2]) (fun b => m (c, b))
/-- The same read at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the host operations before the region, the region, and the host operation after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2] [hostOps1]
    (by simp only [List.Forall]; exact ⟨hostOps0_sub, hostOps0_1_sub, hostOps0_2_sub⟩)
    (by simp only [List.Forall]; exact ⟨hostOps0_fresh, hostOps0_1_fresh, hostOps0_2_fresh⟩) main_chain

/-- The operation after the region touches only the region's arrays and buffers the region does not use. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes none of the region's arrays (it writes its own result buffer only). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.reshape_writes, Finset.mem_singleton] <;> exact StableHlo.devRef_ne_of_ne (by decide)

/-- No host operation before the region writes a given buffer that is none of their results: it is found as launched. -/
theorem V_of_not_written (c : Dev nD) (b : Ref sig .tc)
    (hb : ∀ op ∈ (List.flatten [hostOps0, hostOps0_1, hostOps0_2] : List (HloOp τ sig (Elt F))), Proc.devRef .tc b ∉ op.writes) :
    V m c b = m ((c : Thread nD τ).loc b) :=
  StableHlo.after_of_forall_not_mem (b := Proc.devRef .tc b) _ _ hb

theorem pre_keeps_arg0 : ∀ op ∈ (List.flatten [hostOps0, hostOps0_1, hostOps0_2] : List (HloOp τ sig (Elt F))), Proc.devRef .tc main_arg0 ∉ op.writes :=
  List.forall_iff_forall_mem.mp (by
    simp only [hostOps0, hostOps0_1, hostOps0_2, StableHlo.TRef.unary, StableHlo.TRef.binary, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide))
theorem pre_keeps_arg1 : ∀ op ∈ (List.flatten [hostOps0, hostOps0_1, hostOps0_2] : List (HloOp τ sig (Elt F))), Proc.devRef .tc main_arg1 ∉ op.writes :=
  List.forall_iff_forall_mem.mp (by
    simp only [hostOps0, hostOps0_1, hostOps0_2, StableHlo.TRef.unary, StableHlo.TRef.binary, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide))

/-- The region finds each argument array as launched. -/
theorem V_main_arg0 (c : Dev nD) : V m c main_arg0 = m ((c : Thread nD τ).loc main_arg0) := V_of_not_written m c _ pre_keeps_arg0
theorem V_main_arg1 (c : Dev nD) : V m c main_arg1 = m ((c : Thread nD τ).loc main_arg1) := V_of_not_written m c _ pre_keeps_arg1

/-- The host operation after the region writes neither argument array: each ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg0 (by exact (by decide : ∀ w, Pipeline.arrRef spec0 w ≠ main_arg0))]
  exact V_main_arg0 m c
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg1 (by exact (by decide : ∀ w, Pipeline.arrRef spec0 w ≠ main_arg1))]
  exact V_main_arg1 m c

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The staging buffer of the first input window (the laid-out input, one sample per point) holds its block at every
    point, for any proof data whose array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The same for the second input window (the whole re-laid weight, fetched once: its block never moves). -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a run to the region's post -/

/-- For any proof data whose arrays are the region-entry contents, a run ending with every buffer the region does not
    stage as the last host operation leaves it ends with both argument arrays as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c)⟩) h

/-! ## The staging buffers at a point -/

/-- One staging buffer of the output window, through which its contents are stated. -/
abbrev VO0_2 : View sig .tc .vmem S1x128x784 .f32 := (Memref.whole cc0_stg2_0 : Memref sig .tc .vmem S1x128x784 .f32).view
/-- Each window's current staging buffer at point `t`, and that it is a whole buffer. -/
abbrev ms0_0 (t : Fin cfg0.N) : Memref sig .tc .vmem S1x64x9x784 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S64x128x9 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128x784 .f32 := win0_2.stage (cfg0.slots t 2)
abbrev hs0_2 (t : Fin cfg0.N) : (ms0_2 t).IsWhole := hstage0_2 ((cfg0.slots t 2).cast nbuf0_2)

end Cert.Kernel.Frame

end
-- ==== Proof.RunK.lean ====
/-
  The kernel program as printed: the kernel body run once, on any three whole staging buffers.

  The body fills its output block with zeros, then for each of the 64 input channels loads the block back, adds the
  channel's nine distances to it and stores it, and at last loads it back once more and stores its negation.  The run
  below takes the two input buffers at given contents and the output buffer at any contents, and ends with the inputs
  as they were and the output holding the body's stores written one over the other; the list of those stores is found
  by the run itself.  The loop is passed by its invariant (the stores of the trips before the current one), one trip
  at a symbolic trip number, never trip by trip.
-/
import proofs.«133957_j41729902248401_2_alg».proof.Proof.KitK

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging buffer, as a list of stores (last first), with the proof
    that on whole staging buffers — the inputs' at their contents, the output's at anything — the body runs to the
    continuation holding the inputs' as they were and the output's with those stores written. -/
noncomputable def kernelRun0_A (c : Dev nD) (i : grid0.Coords) (arg1 : Memref sig .tc .vmem S1x64x9x784 .f32) (harg1 : arg1.IsWhole)
    (arg2 : Memref sig .tc .vmem S64x128x9 .f32) (harg2 : arg2.IsWhole) (arg3 : Memref sig .tc .vmem S1x128x784 .f32) (harg3 : arg3.IsWhole)
    (x0 : Vec F S1x64x9x784 .f32) (x1 : Vec F S64x128x9 .f32) :
    { L2 : List (View.Piece (Elt F) S1x128x784 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L2)) -∗ K ⟨⟩))
          ⊢ wp frame (wpE (defs₀ (F := F)) Variants.none c none) E (cc0__adder_kernel i arg1 harg1 arg2 harg2 arg3 harg3) K } := by
  refine ⟨?_, fun E K => ?run⟩
  case run =>
    simp only [cc0__adder_kernel_eq_skeleton]; unfold cc0__adder_kernel_skel
    unfold owns
    iintro ⟨⟨%f0, %hf0, H0⟩, ⟨%f1, %hf1, H1⟩, ⟨%d2, %f2, -, H2⟩, Hk⟩
    obtain rfl := harg1.eq_unread hf0
    obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    iexists _; iexact H2

end Cert.Kernel.Frame

end
-- ==== Proof.FrameK.lean ====
/-
  The kernel program as printed: the frame — it runs to the end, faults nowhere, and leaves its arguments unchanged.

  From the body's run on any staging buffers: what the output's staging buffer holds after the body at each grid
  point (the body's stores read back; one of them is a store of the whole block, so together they cover it), the proof
  data of the pipeline (each input's buffer at its block, the output's at that), the body's obligation at a generic
  point, the run of the whole program around the region, and the frame claim.
-/
import proofs.«133957_j41729902248401_2_alg».proof.Proof.RunK

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Among the body's stores into the output block one is a store of the whole block (the first, of zeros; so are the
    others), so the stores cover the block. -/
theorem cover0_A_2 (c : Dev nD) (i : grid0.Coords) (arg1 : Memref sig .tc .vmem S1x64x9x784 .f32) (harg1 : arg1.IsWhole)
    (arg2 : Memref sig .tc .vmem S64x128x9 .f32) (harg2 : arg2.IsWhole) (arg3 : Memref sig .tc .vmem S1x128x784 .f32) (harg3 : arg3.IsWhole)
    (x0 : Vec F S1x64x9x784 .f32) (x1 : Vec F S64x128x9 .f32) (y : S1x128x784.Idx) :
    ∃ pc ∈ (kernelRun0_A c i arg1 harg1 arg2 harg2 arg3 harg3 x0 x1).1, y ∈ pc.1.set :=
  View.cover_of_wholeMem (kernelRun0_A c i arg1 harg1 arg2 harg2 arg3 harg3 x0 x1).1 (by unfold kernelRun0_A; sl_whole_mem) y

/-- What the run leaves in the output's staging buffer: its stores read back. -/
def out0_A_2 (c : Dev nD) (i : grid0.Coords) (arg1 : Memref sig .tc .vmem S1x64x9x784 .f32) (harg1 : arg1.IsWhole)
    (arg2 : Memref sig .tc .vmem S64x128x9 .f32) (harg2 : arg2.IsWhole) (arg3 : Memref sig .tc .vmem S1x128x784 .f32) (harg3 : arg3.IsWhole)
    (x0 : Vec F S1x64x9x784 .f32) (x1 : Vec F S64x128x9 .f32) : Vec F S1x128x784 .f32 :=
  VO0_2.read (Elt F) (VO0_2.writes (Elt F) VO0_2.junk (kernelRun0_A c i arg1 harg1 arg2 harg2 arg3 harg3 x0 x1).1)

/-! ## What the output holds after each point -/

/-- The output's staging buffer after the body at point `t`: the run's contents at the point's staging buffers and
    input blocks. -/
def outsAt0 (c : Dev nD) (t : Fin cfg0.N) : Vec F S1x128x784 .f32 :=
  out0_A_2 c (grid0.coords t) (ms0_0 t) (hs0_0 t) (ms0_1 t) (hs0_1 t) (ms0_2 t) (hs0_2 t) (iblk m c 0 t) (iblk m c 1 t)

/-! ## The pipeline's proof data -/

/-- The arrays as the region finds them; after the body at point `t` each input's buffer at its block and the output's
    at `outsAt0`; the invariant the rest of the core's scoped memory, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body's obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t))

/-- The body at any point: the inputs' buffers hold their blocks, so the run applies; the invariant passes through
    unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  unfold outsAt0
  unfold out0_A_2
  iintro ⟨HΦ, Ho, ⟨%d0, H0⟩, ⟨%d1, H1⟩, ⟨%d2, H2⟩⟩
  iapply ((kernelRun0_A c (grid0.coords t) _ _ _ _ _ _ (iblk m c 0 t) (iblk m c 1 t)).2 Set.univ _)
  isplitl [H0]; · iexact H0
  isplitl [H1]; · iexact H1
  isplitl [H2]; · iexists _; iexact H2
  iintro ⟨H0, H1, ⟨%e2, H2⟩⟩
  isplitl [HΦ]; · iexact HΦ
  isplitl [Ho]; · iexact Ho
  isplitl [H0]; · iexact H0
  isplitl [H1]; · iexact H1
  unfold owns; iexists _; isplitr
  swap; · iexact H2
  ipureintro; exact View.read_writes_of_cover _ _ _ _ _ (cover0_A_2 c _ _ _ _ _ _ _ _ _)

/-- The body's obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, and every final state
    has every array of the pipeline at what the proof data gives and every other buffer outside the region as the last
    host operation leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame claim, at any instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (run_main m ρ)

end Cert.Kernel.Frame

end
-- ==== Proof.KitI.lean ====
/-
  The idealized kernel program: the program around its one kernel region.

  The program is three stretches of host operations (a constant; the zero padding of the input; the nine shifted
  windows of the padded input laid side by side, and the weight with its first two axes exchanged), then the kernel
  region over a grid of four points, then one host operation reshaping the region's result.  Here: the contents of the
  device's buffers when the region is entered (the fold of the three stretches over the launch memory), the statement
  that the program is those stretches, the region, and the last stretch; that no host operation writes an argument
  array, before or after the region; each window's block at a grid point; and the frame claim read off a run to the
  region's post.
-/
import proofs.«133957_j41729902248401_2_alg».proof.Proof.Gen.KernelIdeal.Launch
import proofs.«133957_j41729902248401_2_alg».proof.Proof.Gen.KernelIdeal.Skeleton
import proofs.«133957_j41729902248401_2_alg».proof.Proof.Gen.KernelIdeal.Loops
import proofs.«133957_j41729902248401_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- The device's buffers when the region is entered: the launch memory after the three stretches of host operations. -/
abbrev V0 (c : Dev nD) : Valuation τ sig (Elt F) := StableHlo.after (List.flatten [hostOps0, hostOps0_1, hostOps0_2]) (fun b => m (c, b))
/-- The same read at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the host operations before the region, the region, and the host operation after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2] [hostOps1]
    (by simp only [List.Forall]; exact ⟨hostOps0_sub, hostOps0_1_sub, hostOps0_2_sub⟩)
    (by simp only [List.Forall]; exact ⟨hostOps0_fresh, hostOps0_1_fresh, hostOps0_2_fresh⟩) main_chain

/-- The operation after the region touches only the region's arrays and buffers the region does not use. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes none of the region's arrays (it writes its own result buffer only). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.reshape_writes, Finset.mem_singleton] <;> exact StableHlo.devRef_ne_of_ne (by decide)

/-- No host operation before the region writes a given buffer that is none of their results: it is found as launched. -/
theorem V_of_not_written (c : Dev nD) (b : Ref sig .tc)
    (hb : ∀ op ∈ (List.flatten [hostOps0, hostOps0_1, hostOps0_2] : List (HloOp τ sig (Elt F))), Proc.devRef .tc b ∉ op.writes) :
    V m c b = m ((c : Thread nD τ).loc b) :=
  StableHlo.after_of_forall_not_mem (b := Proc.devRef .tc b) _ _ hb

theorem pre_keeps_arg0 : ∀ op ∈ (List.flatten [hostOps0, hostOps0_1, hostOps0_2] : List (HloOp τ sig (Elt F))), Proc.devRef .tc main_arg0 ∉ op.writes :=
  List.forall_iff_forall_mem.mp (by
    simp only [hostOps0, hostOps0_1, hostOps0_2, StableHlo.TRef.unary, StableHlo.TRef.binary, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide))
theorem pre_keeps_arg1 : ∀ op ∈ (List.flatten [hostOps0, hostOps0_1, hostOps0_2] : List (HloOp τ sig (Elt F))), Proc.devRef .tc main_arg1 ∉ op.writes :=
  List.forall_iff_forall_mem.mp (by
    simp only [hostOps0, hostOps0_1, hostOps0_2, StableHlo.TRef.unary, StableHlo.TRef.binary, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide))

/-- The region finds each argument array as launched. -/
theorem V_main_arg0 (c : Dev nD) : V m c main_arg0 = m ((c : Thread nD τ).loc main_arg0) := V_of_not_written m c _ pre_keeps_arg0
theorem V_main_arg1 (c : Dev nD) : V m c main_arg1 = m ((c : Thread nD τ).loc main_arg1) := V_of_not_written m c _ pre_keeps_arg1

/-- The host operation after the region writes neither argument array: each ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg0 (by exact (by decide : ∀ w, Pipeline.arrRef spec0 w ≠ main_arg0))]
  exact V_main_arg0 m c
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg1 (by exact (by decide : ∀ w, Pipeline.arrRef spec0 w ≠ main_arg1))]
  exact V_main_arg1 m c

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The staging buffer of the first input window (the laid-out input, one sample per point) holds its block at every
    point, for any proof data whose array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The same for the second input window (the whole re-laid weight, fetched once: its block never moves). -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a run to the region's post -/

/-- For any proof data whose arrays are the region-entry contents, a run ending with every buffer the region does not
    stage as the last host operation leaves it ends with both argument arrays as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c)⟩) h

/-! ## The staging buffers at a point -/

/-- One staging buffer of the output window, through which its contents are stated. -/
abbrev VO0_2 : View sig .tc .vmem S1x128x784 .f32 := (Memref.whole cc0_stg2_0 : Memref sig .tc .vmem S1x128x784 .f32).view
/-- Each window's current staging buffer at point `t`, and that it is a whole buffer. -/
abbrev ms0_0 (t : Fin cfg0.N) : Memref sig .tc .vmem S1x64x9x784 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S64x128x9 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128x784 .f32 := win0_2.stage (cfg0.slots t 2)
abbrev hs0_2 (t : Fin cfg0.N) : (ms0_2 t).IsWhole := hstage0_2 ((cfg0.slots t 2).cast nbuf0_2)

end Cert.KernelIdeal.Frame

end
-- ==== Proof.RunI.lean ====
/-
  The idealized kernel program: the kernel body run once, on any three whole staging buffers.

  The body fills its output block with zeros, then for each of the 64 input channels loads the block back, adds the
  channel's nine distances to it and stores it, and at last loads it back once more and stores its negation.  The run
  below takes the two input buffers at given contents and the output buffer at any contents, and ends with the inputs
  as they were and the output holding the body's stores written one over the other; the list of those stores is found
  by the run itself.  The loop is passed by its invariant (the stores of the trips before the current one), one trip
  at a symbolic trip number, never trip by trip.
-/
import proofs.«133957_j41729902248401_2_alg».proof.Proof.KitI

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging buffer, as a list of stores (last first), with the proof
    that on whole staging buffers — the inputs' at their contents, the output's at anything — the body runs to the
    continuation holding the inputs' as they were and the output's with those stores written. -/
noncomputable def kernelRun0_A (c : Dev nD) (i : grid0.Coords) (arg1 : Memref sig .tc .vmem S1x64x9x784 .f32) (harg1 : arg1.IsWhole)
    (arg2 : Memref sig .tc .vmem S64x128x9 .f32) (harg2 : arg2.IsWhole) (arg3 : Memref sig .tc .vmem S1x128x784 .f32) (harg3 : arg3.IsWhole)
    (x0 : Vec F S1x64x9x784 .f32) (x1 : Vec F S64x128x9 .f32) :
    { L2 : List (View.Piece (Elt F) S1x128x784 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L2)) -∗ K ⟨⟩))
          ⊢ wp frame (wpE (defs₀ (F := F)) Variants.none c none) E (cc0__adder_kernel i arg1 harg1 arg2 harg2 arg3 harg3) K } := by
  refine ⟨?_, fun E K => ?run⟩
  case run =>
    simp only [cc0__adder_kernel_eq_skeleton]; unfold cc0__adder_kernel_skel
    unfold owns
    iintro ⟨⟨%f0, %hf0, H0⟩, ⟨%f1, %hf1, H1⟩, ⟨%d2, %f2, -, H2⟩, Hk⟩
    obtain rfl := harg1.eq_unread hf0
    obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    iexists _; iexact H2

end Cert.KernelIdeal.Frame

end
-- ==== Proof.FrameI.lean ====
/-
  The idealized kernel program: the frame — it runs to the end, faults nowhere, and leaves its arguments unchanged.

  From the body's run on any staging buffers: what the output's staging buffer holds after the body at each grid
  point (the body's stores read back; one of them is a store of the whole block, so together they cover it), the proof
  data of the pipeline (each input's buffer at its block, the output's at that), the body's obligation at a generic
  point, the run of the whole program around the region, and the frame claim.
-/
import proofs.«133957_j41729902248401_2_alg».proof.Proof.RunI

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Among the body's stores into the output block one is a store of the whole block (the first, of zeros; so are the
    others), so the stores cover the block. -/
theorem cover0_A_2 (c : Dev nD) (i : grid0.Coords) (arg1 : Memref sig .tc .vmem S1x64x9x784 .f32) (harg1 : arg1.IsWhole)
    (arg2 : Memref sig .tc .vmem S64x128x9 .f32) (harg2 : arg2.IsWhole) (arg3 : Memref sig .tc .vmem S1x128x784 .f32) (harg3 : arg3.IsWhole)
    (x0 : Vec F S1x64x9x784 .f32) (x1 : Vec F S64x128x9 .f32) (y : S1x128x784.Idx) :
    ∃ pc ∈ (kernelRun0_A c i arg1 harg1 arg2 harg2 arg3 harg3 x0 x1).1, y ∈ pc.1.set :=
  View.cover_of_wholeMem (kernelRun0_A c i arg1 harg1 arg2 harg2 arg3 harg3 x0 x1).1 (by unfold kernelRun0_A; sl_whole_mem) y

/-- What the run leaves in the output's staging buffer: its stores read back. -/
def out0_A_2 (c : Dev nD) (i : grid0.Coords) (arg1 : Memref sig .tc .vmem S1x64x9x784 .f32) (harg1 : arg1.IsWhole)
    (arg2 : Memref sig .tc .vmem S64x128x9 .f32) (harg2 : arg2.IsWhole) (arg3 : Memref sig .tc .vmem S1x128x784 .f32) (harg3 : arg3.IsWhole)
    (x0 : Vec F S1x64x9x784 .f32) (x1 : Vec F S64x128x9 .f32) : Vec F S1x128x784 .f32 :=
  VO0_2.read (Elt F) (VO0_2.writes (Elt F) VO0_2.junk (kernelRun0_A c i arg1 harg1 arg2 harg2 arg3 harg3 x0 x1).1)

/-! ## What the output holds after each point -/

/-- The output's staging buffer after the body at point `t`: the run's contents at the point's staging buffers and
    input blocks. -/
def outsAt0 (c : Dev nD) (t : Fin cfg0.N) : Vec F S1x128x784 .f32 :=
  out0_A_2 c (grid0.coords t) (ms0_0 t) (hs0_0 t) (ms0_1 t) (hs0_1 t) (ms0_2 t) (hs0_2 t) (iblk m c 0 t) (iblk m c 1 t)

/-! ## The pipeline's proof data -/

/-- The arrays as the region finds them; after the body at point `t` each input's buffer at its block and the output's
    at `outsAt0`; the invariant the rest of the core's scoped memory, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body's obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t))

/-- The body at any point: the inputs' buffers hold their blocks, so the run applies; the invariant passes through
    unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  unfold outsAt0
  unfold out0_A_2
  iintro ⟨HΦ, Ho, ⟨%d0, H0⟩, ⟨%d1, H1⟩, ⟨%d2, H2⟩⟩
  iapply ((kernelRun0_A c (grid0.coords t) _ _ _ _ _ _ (iblk m c 0 t) (iblk m c 1 t)).2 Set.univ _)
  isplitl [H0]; · iexact H0
  isplitl [H1]; · iexact H1
  isplitl [H2]; · iexists _; iexact H2
  iintro ⟨H0, H1, ⟨%e2, H2⟩⟩
  isplitl [HΦ]; · iexact HΦ
  isplitl [Ho]; · iexact Ho
  isplitl [H0]; · iexact H0
  isplitl [H1]; · iexact H1
  unfold owns; iexists _; isplitr
  swap; · iexact H2
  ipureintro; exact View.read_writes_of_cover _ _ _ _ _ (cover0_A_2 c _ _ _ _ _ _ _ _ _)

/-- The body's obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, and every final state
    has every array of the pipeline at what the proof data gives and every other buffer outside the region as the last
    host operation leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame claim, at any instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (run_main m ρ)

end Cert.KernelIdeal.Frame

end
-- ==== Proof.ValueDefs.lean ====
/-
  The idealized kernel's body as one function of its two input blocks.

  The body zero-fills the output block, adds to it, channel by channel, the channel's nine distances, and negates it.
  `stepVal` is one channel's step on the block accumulated so far (the channel's rows of the two input blocks loaded,
  the nine taps' distances added up from zero, the sum added to the block); `accV k` the block after the first `k`
  channels; `outVal` the negation of the block after all of them.
-/
import proofs.«133957_j41729902248401_2_alg».proof.Proof.Gen.KernelIdeal.Skeleton
import Idealize.ShloMosaic.Lib.Pipeline.FrameBody
import Idealize.ShloMosaic.Lib.Pipeline.Value

noncomputable section

namespace Cert.KernelIdeal.Frame

open Cert.KernelIdeal Cert.KernelIdeal.Gen
open Idealize.ShloMosaic

variable {F : FTy → Type} [FloatOps F]

/-- The rectangle of the whole output block. -/
abbrev r0 : Rect S1x128x784 := Rect.unit (s := S1x128x784) ![0, 0, 0] S1x128x784.size inb_S1x128x784_S1x128x784_0_0_0

/-- Its offsets are zero on every axis. -/
theorem hz : (![0, 0, 0] : Fin S1x128x784.rank → ℕ) = fun _ => 0 := by
  funext a; match a with | ⟨0, _⟩ => rfl | ⟨1, _⟩ => rfl | ⟨2, _⟩ => rfl

/-- Channel `k`'s rows of the first input block: the nine shifted windows of that channel. -/
abbrev rowsX (x0 : Vec F S1x64x9x784 .f32) (k : Fin k0_t1_loop.trips) : Vec F S1x1x9x784 .f32 :=
  View.ld x0 (Rect.unit (s := S1x64x9x784) (k0_off1 k) S1x1x9x784.size (k0_off1_inb k))
/-- Channel `k`'s rows of the second input block: its nine weights for each output channel. -/
abbrev rowsW (x1 : Vec F S64x128x9 .f32) (k : Fin k0_t1_loop.trips) : Vec F S1x128x9 .f32 :=
  View.ld x1 (Rect.unit (s := S64x128x9) (k0_off2 k) S1x128x9.size (k0_off2_inb k))

/-- One channel's step: the block `prev` plus the channel's nine distances. -/
def stepVal (x0 : Vec F S1x64x9x784 .f32) (x1 : Vec F S64x128x9 .f32) (k : Fin k0_t1_loop.trips) (prev : Vec F S1x128x784 .f32) :
    Vec F S1x128x784 .f32 :=
  k0_pay2 (k0_pay5 (rowsW x1 k))
    (k0_pay9 (k0_pay4 (rowsX x0 k)) (k0_pay5 (rowsW x1 k)) (k0_pay6 (rowsX x0 k) (rowsW x1 k)) (k0_pay7 (rowsW x1 k)) (k0_pay8 (rowsX x0 k)))
    (k0_pay10 (k0_pay4 (rowsX x0 k))) prev

/-- The block after the first `k` channels, from zeros. -/
def accV (x0 : Vec F S1x64x9x784 .f32) (x1 : Vec F S64x128x9 .f32) : ℕ → Vec F S1x128x784 .f32
  | 0 => k0_pay1
  | k + 1 => if h : k < k0_t1_loop.trips then stepVal x0 x1 ⟨k, h⟩ (accV x0 x1 k) else accV x0 x1 k

/-- What the body leaves in the output block: the negation of the block after all the channels. -/
def outVal (x0 : Vec F S1x64x9x784 .f32) (x1 : Vec F S64x128x9 .f32) : Vec F S1x128x784 .f32 :=
  k0_pay3 (accV x0 x1 k0_t1_loop.trips)

end Cert.KernelIdeal.Frame

end
-- ==== Proof.ValueI.lean ====
/-
  What the idealized kernel's body leaves in its output block is `outVal` of its two input blocks.

  The run of the body found its stores as a list: the negation's store, the 64 trips' stores, the zero fill.  Every one
  of them is a store of the whole block, so reading the list back gives its first payload, and a load after some of the
  stores reads the payload of the last one.  Each trip stores `stepVal` of what it loaded back; by induction on the
  number of trips the block after `k` trips is `accV k`.
-/
import proofs.«133957_j41729902248401_2_alg».proof.Proof.FrameI
import proofs.«133957_j41729902248401_2_alg».proof.Proof.ValueDefs

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.Sem

variable {F : FTy → Type} [FloatOps F]

/-- One trip's stores: one store of the whole block, of `stepVal` of the block the trip finds. -/
theorem tripL_eq (𝒱 : Variants) (c : Dev nD) (bd : Option 𝒱.V) (i : grid0.Coords) (arg1 : Memref sig .tc .vmem S1x64x9x784 .f32) (harg1 : arg1.IsWhole)
    (arg2 : Memref sig .tc .vmem S64x128x9 .f32) (harg2 : arg2.IsWhole) (arg3 : Memref sig .tc .vmem S1x128x784 .f32) (harg3 : arg3.IsWhole)
    (x0 : Vec F S1x64x9x784 .f32) (x1 : Vec F S64x128x9 .f32) (k : Fin k0_t1_loop.trips) (f : BufTy.Contents (Elt F) arg3.view.ty) :
    tripL_k0_t1 (F := F) 𝒱 c bd i arg1 harg1 arg2 harg2 arg3 harg3 (harg1.unread x0) (harg2.unread x1) k f
      = [⟨r0, stepVal x0 x1 k (arg3.view.read (Elt F) f)⟩] := by
  unfold tripL_k0_t1 trip_k0_t1
  dsimp only
  sl_unfold_run_names
  simp only [View.readAt_eq_ld, harg1.read_unread, harg2.read_unread, View.ld_unit_zero (S := S1x128x784) hz]
  rfl

/-- The block after `k` trips over the zero fill is `accV k`. -/
theorem canon_pb (𝒱 : Variants) (c : Dev nD) (bd : Option 𝒱.V) (i : grid0.Coords) (arg1 : Memref sig .tc .vmem S1x64x9x784 .f32) (harg1 : arg1.IsWhole)
    (arg2 : Memref sig .tc .vmem S64x128x9 .f32) (harg2 : arg2.IsWhole) (arg3 : Memref sig .tc .vmem S1x128x784 .f32) (harg3 : arg3.IsWhole)
    (x0 : Vec F S1x64x9x784 .f32) (x1 : Vec F S64x128x9 .f32) (k : ℕ) (hk : k ≤ k0_t1_loop.trips) :
    View.canon (pb_k0_t1 (F := F) 𝒱 c bd i arg1 harg1 arg2 harg2 arg3 harg3 (harg1.unread x0) (harg2.unread x1)
        (arg3.view.writes (Elt F) arg3.view.junk [⟨r0, k0_pay1⟩]) k ++ [⟨r0, k0_pay1⟩]) = accV x0 x1 k := by
  induction k with
  | zero =>
    rw [pb_k0_t1.eq_1, List.nil_append, View.canon_unit_zero hz]; rfl
  | succ k ih =>
    have hk' : k < k0_t1_loop.trips := hk
    rw [pb_k0_t1_succ 𝒱 c bd i arg1 harg1 arg2 harg2 arg3 harg3 _ _ _ ⟨k, hk'⟩, tripL_eq, List.append_assoc, List.singleton_append,
      View.canon_cons_unit_zero hz, ← View.writes_append, View.read_writes_junk_eq_canon, ih (le_of_lt hk')]
    rw [accV, dif_pos hk']

/-- What the body leaves in the output's staging buffer is `outVal` of the two input blocks. -/
theorem out0_A_2_eq (c : Dev nD) (i : grid0.Coords) (arg1 : Memref sig .tc .vmem S1x64x9x784 .f32) (harg1 : arg1.IsWhole)
    (arg2 : Memref sig .tc .vmem S64x128x9 .f32) (harg2 : arg2.IsWhole) (arg3 : Memref sig .tc .vmem S1x128x784 .f32) (harg3 : arg3.IsWhole)
    (x0 : Vec F S1x64x9x784 .f32) (x1 : Vec F S64x128x9 .f32) :
    out0_A_2 c i arg1 harg1 arg2 harg2 arg3 harg3 x0 x1 = outVal x0 x1 := by
  unfold out0_A_2
  rw [View.read_writes_junk_eq_canon]
  unfold kernelRun0_A
  dsimp only
  sl_unfold_run_names
  rw [View.canon_cons_unit_zero hz]
  simp only [View.readAt_eq_ld, View.ld_unit_zero (S := S1x128x784) hz]
  rw [View.read_writes_junk_eq_canon]
  unfold outVal
  exact congrArg k0_pay3 (canon_pb Variants.none c none i arg1 harg1 arg2 harg2 arg3 harg3 x0 x1 _ (le_refl _))

end Cert.KernelIdeal.Frame

end
-- ==== Proof.ArrayI.lean ====
/-
  The idealized kernel's result array as one function of the two arrays the region is launched on.

  The grid has one point per sample `n`: the point's first input block is sample `n` of the laid-out input (all its
  channels, taps and positions), its second input block the whole re-laid weight, its output block sample `n` of the
  result.  So the result array at `(n, co, p)` is the body's function of those blocks at `(0, co, p)`, and the four
  blocks tile the result array.
-/
import proofs.«133957_j41729902248401_2_alg».proof.Proof.ValueI
import Idealize.ShloMosaic.Lib.ValueIdx

set_option maxRecDepth 16384

noncomputable section

namespace Cert.KernelIdeal.Frame

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable {F : FTy → Type} [FloatOps F]

variable (m : (ℓ : Loc nD τ sig) → Buf (Elt F) ℓ) (ρ : Dev nD → PrngReg)

/-- Sample `n` of the laid-out input, as a block with a leading axis of extent one. -/
def xsRow (xs : S4x64x9x784.Idx → Elt F .f32) (n : Fin 4) : Vec F S1x64x9x784 .f32 :=
  fun y => xs (ix4 n (y 1 : Fin 64) (y 2 : Fin 9) (y 3 : Fin 784))

/-- The result array: at `(n, co, p)` the body's function of sample `n`'s block and the whole weight, at `(0, co, p)`. -/
def GK (xs : S4x64x9x784.Idx → Elt F .f32) (wT : S64x128x9.Idx → Elt F .f32) : S4x128x784.Idx → Elt F .f32 :=
  fun q => outVal (xsRow xs (q 0 : Fin 4)) wT (ix3 (0 : Fin 1) (q 1 : Fin 128) (q 2 : Fin 784))

/-- The printed index maps, decided over the grid: point `t` takes sample `t` of the input and of the result, and
    the whole weight. -/
theorem idx_facts : ∀ t : Fin cfg0.N, win0_0.index t (0 : Fin 4) = t.val ∧ win0_0.index t (1 : Fin 4) = 0
    ∧ win0_0.index t (2 : Fin 4) = 0 ∧ win0_0.index t (3 : Fin 4) = 0
    ∧ win0_1.index t (0 : Fin 3) = 0 ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

theorem t_lt (t : Fin cfg0.N) : t.val < 4 := Nat.lt_of_lt_of_eq t.isLt N_0

/-- The first input block at point `t` is sample `t` of the laid-out input. -/
theorem iblk0_eq (c : Dev nD) (t : Fin cfg0.N) : iblk m c 0 t = xsRow (V m c main_v28) ⟨t.val, t_lt t⟩ := by
  obtain ⟨e0, e1, e2, e3, -⟩ := idx_facts t
  funext y
  show V m c main_v28 (((cfg0.win 0).blk t).view.emb y) = V m c main_v28 _
  congr 1
  funext a; apply Fin.ext
  match a with
  | ⟨0, _⟩ => show win0_0.index t (0 : Fin 4) * 1 + 1 * (y 0).val = t.val; have hy : (y 0).val < 1 := (y 0).isLt; omega
  | ⟨1, _⟩ => show win0_0.index t (1 : Fin 4) * 64 + 1 * (y 1).val = (y 1).val; omega
  | ⟨2, _⟩ => show win0_0.index t (2 : Fin 4) * 9 + 1 * (y 2).val = (y 2).val; omega
  | ⟨3, _⟩ => show win0_0.index t (3 : Fin 4) * 784 + 1 * (y 3).val = (y 3).val; omega

/-- The second input block at every point is the whole re-laid weight. -/
theorem iblk1_eq (c : Dev nD) (t : Fin cfg0.N) : iblk m c 1 t = V m c main_v30 := by
  obtain ⟨-, -, -, -, e4, e5, e6, -⟩ := idx_facts t
  funext y
  show V m c main_v30 (((cfg0.win 1).blk t).view.emb y) = V m c main_v30 y
  congr 1
  funext a; apply Fin.ext
  match a with
  | ⟨0, _⟩ => show win0_1.index t (0 : Fin 3) * 64 + 1 * (y 0).val = (y 0).val; omega
  | ⟨1, _⟩ => show win0_1.index t (1 : Fin 3) * 128 + 1 * (y 1).val = (y 1).val; omega
  | ⟨2, _⟩ => show win0_1.index t (2 : Fin 3) * 9 + 1 * (y 2).val = (y 2).val; omega

/-- What point `t` writes back is block `t` of `GK` of the two launch arrays. -/
theorem flushed2_eq (c : Dev nD) (t : Fin cfg0.N) :
    (dats m 0 c).flushed 2 t = ((cfg0.win 2).blk t).view.read (Elt F) (GK (V m c main_v28) (V m c main_v30)) := by
  show (cfg0.win 2).cut (grid0.coords t) ((dats m 0 c).after 2 t) = _
  rw [after0_2]
  unfold outsAt0
  rw [out0_A_2_eq, iblk0_eq, iblk1_eq]
  obtain ⟨-, -, -, -, -, -, -, e7, e8, e9⟩ := idx_facts t
  funext j
  show outVal _ _ j = GK (V m c main_v28) (V m c main_v30) (((cfg0.win 2).blk t).view.emb j)
  unfold GK
  have h0 : ((((cfg0.win 2).blk t).view.emb j) 0 : Fin 4) = ⟨t.val, t_lt t⟩ := by
    apply Fin.ext
    show win0_2.index t (0 : Fin 3) * 1 + 1 * (j 0).val = t.val
    have hj : (j 0).val < 1 := (j 0).isLt
    omega
  have h1 : ((((cfg0.win 2).blk t).view.emb j) 1 : Fin 128) = (j 1 : Fin 128) := by
    apply Fin.ext
    show win0_2.index t (1 : Fin 3) * 128 + 1 * (j 1).val = (j 1).val
    omega
  have h2 : ((((cfg0.win 2).blk t).view.emb j) 2 : Fin 784) = (j 2 : Fin 784) := by
    apply Fin.ext
    show win0_2.index t (2 : Fin 3) * 784 + 1 * (j 2).val = (j 2).val
    omega
  rw [h0, h1, h2]
  congr 1
  funext a
  match a with
  | ⟨0, _⟩ => apply Fin.ext; show (j 0).val = 0; have hj : (j 0).val < 1 := (j 0).isLt; omega
  | ⟨1, _⟩ => rfl
  | ⟨2, _⟩ => rfl

/-- An index of the result array is in point `t`'s block iff each coordinate is in the block's range on its axis. -/
theorem mem_blk2 (t : Fin cfg0.N) (i : S4x128x784.Idx) :
    i ∈ ((cfg0.win 2).blk t).view.set ↔ ∀ a : Fin 3, win0_2.index t a * S1x128x784.size a ≤ (i a).val ∧ (i a).val < win0_2.index t a * S1x128x784.size a + S1x128x784.size a := by
  show i ∈ ((View.whole main_v31).slice (win0_2.rect t)).set ↔ _
  rw [View.set_slice_whole, Rect.mem_set_unit]
  exact Iff.rfl

/-- Every index of the result array is in the block of the point of its sample. -/
theorem cover2 (i : S4x128x784.Idx) : ∃ t : Fin cfg0.N, (cfg0.win 2).flush t = true ∧ i ∈ ((cfg0.win 2).blk t).view.set := by
  have hi0 : (i 0).val < 4 := (i 0).isLt
  have hi1 : (i 1).val < 128 := (i 1).isLt
  have hi2 : (i 2).val < 784 := (i 2).isLt
  obtain ⟨t, ht⟩ : ∃ t : Fin cfg0.N, t.val = (i 0).val := ⟨⟨(i 0).val, Nat.lt_of_lt_of_eq hi0 N_0.symm⟩, rfl⟩
  refine ⟨t, flush0_2 t, ?_⟩
  rw [mem_blk2]
  obtain ⟨-, -, -, -, -, -, -, e7, e8, e9⟩ := idx_facts t
  intro a
  match a with
  | ⟨0, _⟩ => show win0_2.index t (0 : Fin 3) * 1 ≤ (i 0).val ∧ (i 0).val < win0_2.index t (0 : Fin 3) * 1 + 1; rw [e7]; omega
  | ⟨1, _⟩ => show win0_2.index t (1 : Fin 3) * 128 ≤ (i 1).val ∧ (i 1).val < win0_2.index t (1 : Fin 3) * 128 + 128; rw [e8]; omega
  | ⟨2, _⟩ => show win0_2.index t (2 : Fin 3) * 784 ≤ (i 2).val ∧ (i 2).val < win0_2.index t (2 : Fin 3) * 784 + 784; rw [e9]; omega

/-- The result array after the run. -/
theorem final2 (c : Dev nD) : (dats m 0 c).arrAt 2 cfg0.N = GK (V m c main_v28) (V m c main_v30) :=
  (dats m 0 c).arrAt_eq_of_cover 2 (GK (V m c main_v28) (V m c main_v30)) (fun t _ => flushed2_eq m c t) cover2

end Cert.KernelIdeal.Frame

end
-- ==== Proof.TailI.lean ====
/-
  The idealized kernel program's run, with its result named.

  After the region one host operation reshapes the region's result array `[4, 128, 784]` to `[4, 128, 28, 28]`;
  it reads the array the region left (`GK` of the two launch arrays) and writes the program's result.  So every run
  ends with the result at that reshaping of `GK`, and both arguments as launched.
-/
import proofs.«133957_j41729902248401_2_alg».proof.Proof.ArrayI

set_option maxRecDepth 16384

noncomputable section

namespace Cert.KernelIdeal.Frame

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable {F : FTy → Type} [FloatOps F]

variable (m : (ℓ : Loc nD τ sig) → Buf (Elt F) ℓ) (ρ : Dev nD → PrngReg)

/-- The program's result after the host operation that follows the region: the region's result array reshaped. -/
theorem W_main_v32 (c : Dev nD) :
    Pipeline.afterTail₀ cfgs (dats m) 0 (V0 m) [hostOps1] c main_v32
      = shapeCast S4x128x28x28 (GK (V m c main_v28) (V m c main_v30)) shapeCasts_S4x128x784_S4x128x28x28 := by
  unfold Pipeline.afterTail₀
  show StableHlo.after hostOps1 _ (Proc.devRef .tc main_v32) = _
  after_results
  rw [(Pipeline.withArrays_arr spec0 launch0.win.arr_inj c _ _ 2).trans (final2 m c)]
  rfl

/-- Every weakly fair execution of the program terminates with the result at the reshaped `GK` of the launch arrays
    and both arguments as launched. -/
theorem run_value : θ_run defs (onTc (τ := τ) (main (F := F))) ⟨m, fun _ => 0, ρ⟩ (fun r => ∀ c : Dev nD,
      r.2.mem ((c.tc : Thread nD τ).loc main_v32)
        = shapeCast S4x128x28x28 (GK (V m c main_v28) (V m c main_v30)) shapeCasts_S4x128x784_S4x128x28x28
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v32 (Pipeline.mem_restRefs_of main_v32 (by decide) (by decide))).trans (W_main_v32 m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.Frame

end
-- ==== Proof.LibKeepdims.lean ====
/-
  Three layout facts a row reduction with kept dimensions meets, each read at an entry given by its coordinates:
  a vector of per-row values viewed as a one-column array, a one-column array spread across the columns of each
  row, and the sum along the second axis of a two-axis array.  They hold for arrays of any extents `[a]`,
  `[a, 1]`, `[a, b]` and, the first two, for entries of any type.
-/
import Idealize.ShloMosaic.Lib.Pipeline.Value
import Idealize.ShloMosaic.Lib.ValueIdx
import Idealize.ShloMosaic.PureOps.Ideal.Laws

noncomputable section

open scoped BigOperators

namespace Cert.LibKeepdims

open Idealize.ShloMosaic Idealize.ShloMosaic.ValueIdx

variable {α : Type}

/-- An `[a]` array cast to `[a, 1]` reads, at `(i, u)`, the operand at `i`: both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(i, j)`, the operand's one entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- Over the extended reals, the sum of a `[a, b]` array along its second axis, started from the zero word, is at
    row `i` the sum over the columns `k` of the entries `(i, k)`. -/
theorem multiReduction_add_rows_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (i : Fin a) :
    multiReduction .add [1] ⟨1, ![a]⟩ src 0x00000000#32 h hφ hacc (ix1 i) = ∑ k : Fin b, src (ix2 i k) := by
  refine (Ideal.multiReduction_add_single src 0x00000000#32 h hφ hacc (ix1 i)).trans ?_
  refine Finset.sum_congr rfl fun k _ => congrArg src ?_
  funext ax
  apply Fin.ext
  match ax with
  | ⟨0, _⟩ => rfl
  | ⟨1, _⟩ => rfl

end Cert.LibKeepdims

end
-- ==== Proof.LibUnitCasts.lean ====
/-
  A layout fact about two leading unit axes, read at an entry given by its coordinates: a `[1, 1, a, b]` array
  viewed as an `[a, b]` array.  It holds for any extents and for entries of any type.  (One leading unit axis dropped
  or added is among the library's layout lemmas; this is the case of two.)
-/
import Idealize.ShloMosaic.Lib.Pipeline.Value
import Idealize.ShloMosaic.Lib.ValueIdx

noncomputable section

namespace Cert.LibUnitCasts

open Idealize.ShloMosaic Idealize.ShloMosaic.ValueIdx

/-- A `[1, 1, a, b]` array cast to `[a, b]` reads, at `(i, j)`, the operand at `(0, 0, i, j)`: both sit at row-major
    position `i * b + j`. -/
theorem shapeCast_11ab_ab_apply {α : Type} {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

end Cert.LibUnitCasts

end
-- ==== Proof.KernelTerm.lean ====
/-
  The idealized kernel's body read at an index.

  For one channel the body loads the channel's nine rows of the first input block (the nine shifted windows, each of
  784 positions) and its nine weights for each of the 128 output channels, and adds up from zero, tap by tap, the
  distance | X (kk, p) - W (co, kk) | spread over the [128, 784] block: row kk of the windows is spread over the
  output channels, column kk of the weights over the positions. The step adds that sum to the block accumulated so
  far. Read at an output channel co and a position p, every layout operation on the way (a row or a column cut out,
  unit axes dropped and put back, a row or a column spread) is the identity on the one entry it carries, so the
  channel's contribution is zero plus the nine distances in the order the body adds them, and the body's result is
  minus the sum over the channels of these contributions.
-/
import proofs.«133957_j41729902248401_2_alg».proof.Proof.ValueDefs
import proofs.«133957_j41729902248401_2_alg».proof.Proof.LibKeepdims
import proofs.«133957_j41729902248401_2_alg».proof.Proof.LibUnitCasts
import Idealize.ShloMosaic.Lib.ValueLayout
import Idealize.ShloMosaic.PureOps.Ideal.Laws

noncomputable section

open scoped BigOperators

namespace Cert.AdderKernel

open Idealize.ShloMosaic Idealize.ShloMosaic.ValueIdx Cert.KernelIdeal Cert.KernelIdeal.Gen Cert.KernelIdeal.Frame

/-! ## The terms -/

/-- One tap's distance over two-axis arrays: rows `X : [9, 784]` of windows, weights `W : [128, 9]`. -/
def tapXW (X : S9x784.Idx → EReal) (W : S128x9.Idx → EReal) (kk : Fin 9) (co : Fin 128) (p : Fin 784) : EReal :=
  max (X (ix2 kk p) - W (ix2 co kk)) (-(X (ix2 kk p) - W (ix2 co kk)))

/-- One tap's distance in the input blocks: channel `ci`, tap `kk`, output channel `co`, position `p`. -/
def tapK (x0 : Vec Ideal S1x64x9x784 .f32) (x1 : Vec Ideal S64x128x9 .f32) (ci : Fin 64) (kk : Fin 9) (co : Fin 128)
    (p : Fin 784) : EReal :=
  max (x0 (ix4 (0 : Fin 1) ci kk p) - x1 (ix3 ci co kk)) (-(x0 (ix4 (0 : Fin 1) ci kk p) - x1 (ix3 ci co kk)))

/-- One channel's contribution: zero plus the nine taps' distances, added in the body's order. -/
def chanK (x0 : Vec Ideal S1x64x9x784 .f32) (x1 : Vec Ideal S64x128x9 .f32) (ci : Fin 64) (co : Fin 128) (p : Fin 784) :
    EReal :=
  0 + tapK x0 x1 ci 0 co p + tapK x0 x1 ci 1 co p + tapK x0 x1 ci 2 co p + tapK x0 x1 ci 3 co p + tapK x0 x1 ci 4 co p
    + tapK x0 x1 ci 5 co p + tapK x0 x1 ci 6 co p + tapK x0 x1 ci 7 co p + tapK x0 x1 ci 8 co p

/-! ## The loop has 64 trips -/

theorem trips_eq : k0_t1_loop.trips = 64 := by decide

/-- A trip is a channel. -/
theorem trips_lt (k : Fin k0_t1_loop.trips) : k.val < 64 := lt_of_lt_of_le k.isLt k0_t1_abs.2.1

/-! ## Pointwise operations and the zero word at the extended reals -/

/-- The word of all zero bits is the extended real zero. -/
theorem zero_word : (FloatOps.ofBits (F := Ideal) .f32 0x00000000#32 : Ideal .f32) = 0 := Ideal.ofBits_zero_f32

/-- An absolute value at an index is the larger of the element and its negation. -/
theorem absf_apply {s : Shape} {φ : FTy} (a : FVec Ideal s φ) (i : s.Idx) : absf a i = max (a i) (-(a i)) := rfl

/-! ## A row of the windows and a column of the weights, spread over the block -/

/-- Row `kk` of `X` cut out, flattened, put back as a one-row array and spread over the 128 output channels reads, at
    `(co, p)`, `X (kk, p)`. -/
theorem xrow_apply {α : Type} (X : S9x784.Idx → α) (o : ℕ) (hs : S9x784.Slices ![o, 0] S1x784) (kk : Fin 9)
    (hk : kk.val = o) (co : Fin 128) (p : Fin 784) :
    broadcastTo S128x784 (shapeCast S1x784 (shapeCast S1x784 (shapeCast S784 (extractStridedSlice S1x784 ![o, 0] X hs)
      shapeCasts_S1x784_S784) shapeCasts_S784_S1x784) shapeCasts_S1x784_S1x784) broadcasts_S1x784_S128x784 (ix2 co p)
      = X (ix2 kk p) := by
  rw [broadcastTo_1b_ab_apply, shapeCast_self, shapeCast_shapeCast]
  exact slice2_axis0_apply o X hs 0 p kk (by show kk.val = o + 0; exact hk)

/-- Column `kk` of `W` cut out, flattened, put back as a one-column array and spread over the 784 positions reads, at
    `(co, p)`, `W (co, kk)`. -/
theorem wcol_apply {α : Type} (W : S128x9.Idx → α) (o : ℕ) (hs : S128x9.Slices ![0, o] S128x1) (kk : Fin 9)
    (hk : kk.val = o) (co : Fin 128) (p : Fin 784) :
    broadcastTo S128x784 (shapeCast S128x1 (shapeCast S128x1 (shapeCast S128 (extractStridedSlice S128x1 ![0, o] W hs)
      shapeCasts_S128x1_S128) shapeCasts_S128_S128x1) shapeCasts_S128x1_S128x1) broadcasts_S128x1_S128x784 (ix2 co p)
      = W (ix2 co kk) := by
  rw [Cert.LibKeepdims.broadcastTo_a1_ab_apply, shapeCast_self, shapeCast_shapeCast]
  exact slice2_axis1_apply o W hs co 0 kk (by show kk.val = o + 0; exact hk)

/-! ## The body's pieces at an index -/

/-- Taps 0, 1, 2, added up from zero. -/
theorem pay6_apply (v13 : Vec Ideal S1x1x9x784 .f32) (v16 : Vec Ideal S1x128x9 .f32) (co : Fin 128) (p : Fin 784) :
    k0_pay6 v13 v16 (ix2 co p)
      = 0 + tapXW (k0_pay4 v13) (k0_pay5 v16) 0 co p + tapXW (k0_pay4 v13) (k0_pay5 v16) 1 co p
          + tapXW (k0_pay4 v13) (k0_pay5 v16) 2 co p := by
  unfold k0_pay6
  simp only [addf_apply, absf_apply, subf_apply, broadcast_apply, zero_word, tapXW,
    xrow_apply _ 0 _ 0 rfl, xrow_apply _ 1 _ 1 rfl, xrow_apply _ 2 _ 2 rfl,
    wcol_apply _ 0 _ 0 rfl, wcol_apply _ 1 _ 1 rfl, wcol_apply _ 2 _ 2 rfl]

/-- Taps 3 to 7, added to what came before; tap 3's row and column arrive already cut out. -/
theorem pay9_apply (v13 : Vec Ideal S1x1x9x784 .f32) (v16 : Vec Ideal S1x128x9 .f32) (A : FVec Ideal S128x784 .f32)
    (co : Fin 128) (p : Fin 784) :
    k0_pay9 (k0_pay4 v13) (k0_pay5 v16) A (k0_pay7 v16) (k0_pay8 v13) (ix2 co p)
      = A (ix2 co p) + tapXW (k0_pay4 v13) (k0_pay5 v16) 3 co p + tapXW (k0_pay4 v13) (k0_pay5 v16) 4 co p
          + tapXW (k0_pay4 v13) (k0_pay5 v16) 5 co p + tapXW (k0_pay4 v13) (k0_pay5 v16) 6 co p
          + tapXW (k0_pay4 v13) (k0_pay5 v16) 7 co p := by
  unfold k0_pay9 k0_pay7 k0_pay8
  simp only [addf_apply, absf_apply, subf_apply, tapXW,
    xrow_apply _ 3 _ 3 rfl, xrow_apply _ 4 _ 4 rfl, xrow_apply _ 5 _ 5 rfl, xrow_apply _ 6 _ 6 rfl, xrow_apply _ 7 _ 7 rfl,
    wcol_apply _ 3 _ 3 rfl, wcol_apply _ 4 _ 4 rfl, wcol_apply _ 5 _ 5 rfl, wcol_apply _ 6 _ 6 rfl, wcol_apply _ 7 _ 7 rfl]

/-- Tap 8 added, and the sum added to the block accumulated so far; tap 8's row arrives already cut out. -/
theorem pay2_apply (v13 : Vec Ideal S1x1x9x784 .f32) (v16 : Vec Ideal S1x128x9 .f32) (B : FVec Ideal S128x784 .f32)
    (prev : Vec Ideal S1x128x784 .f32) (co : Fin 128) (p : Fin 784) :
    k0_pay2 (k0_pay5 v16) B (k0_pay10 (k0_pay4 v13)) prev (ix3 (0 : Fin 1) co p)
      = prev (ix3 (0 : Fin 1) co p) + (B (ix2 co p) + tapXW (k0_pay4 v13) (k0_pay5 v16) 8 co p) := by
  unfold k0_pay2 k0_pay10
  simp only [shapeCast_ab_1ab_apply, shapeCast_1ab_ab_apply, addf_apply, absf_apply, subf_apply, tapXW,
    xrow_apply _ 8 _ 8 rfl, wcol_apply _ 8 _ 8 rfl]

/-! ## The loaded rows are the input blocks' entries of the trip's channel -/

/-- The windows' rows of trip `k`: entry `(kk, p)` is the first block at `(0, k, kk, p)`. -/
theorem X_apply (x0 : Vec Ideal S1x64x9x784 .f32) (k : Fin k0_t1_loop.trips) (kk : Fin 9) (p : Fin 784) :
    k0_pay4 (rowsX x0 k) (ix2 kk p) = x0 (ix4 (0 : Fin 1) (⟨k.val, trips_lt k⟩ : Fin 64) kk p) := by
  show shapeCast S9x784 (rowsX x0 k) shapeCasts_S1x1x9x784_S9x784 (ix2 kk p) = _
  rw [Cert.LibUnitCasts.shapeCast_11ab_ab_apply]
  show x0 ((Rect.unit (s := S1x64x9x784) (k0_off1 k) S1x1x9x784.size (k0_off1_inb k)).idx
    (ix4 (0 : Fin 1) (0 : Fin 1) kk p)) = _
  refine congrArg x0 (funext fun a => Fin.ext ?_)
  have hoff := k0_off1_eq k
  match a with
  | ⟨0, _⟩ => show k0_off1 k 0 + 1 * 0 = 0; rw [hoff]; rfl
  | ⟨1, _⟩ => show k0_off1 k 1 + 1 * 0 = k.val; rw [hoff]; rfl
  | ⟨2, _⟩ => show k0_off1 k 2 + 1 * kk.val = kk.val; rw [hoff]; show 0 + 1 * kk.val = kk.val; omega
  | ⟨3, _⟩ => show k0_off1 k 3 + 1 * p.val = p.val; rw [hoff]; show 0 + 1 * p.val = p.val; omega

/-- The weights' rows of trip `k`: entry `(co, kk)` is the second block at `(k, co, kk)`. -/
theorem W_apply (x1 : Vec Ideal S64x128x9 .f32) (k : Fin k0_t1_loop.trips) (co : Fin 128) (kk : Fin 9) :
    k0_pay5 (rowsW x1 k) (ix2 co kk) = x1 (ix3 (⟨k.val, trips_lt k⟩ : Fin 64) co kk) := by
  show shapeCast S128x9 (rowsW x1 k) shapeCasts_S1x128x9_S128x9 (ix2 co kk) = _
  rw [shapeCast_1ab_ab_apply]
  show x1 ((Rect.unit (s := S64x128x9) (k0_off2 k) S1x128x9.size (k0_off2_inb k)).idx (ix3 (0 : Fin 1) co kk)) = _
  refine congrArg x1 (funext fun a => Fin.ext ?_)
  have hoff := k0_off2_eq k
  match a with
  | ⟨0, _⟩ => show k0_off2 k 0 + 1 * 0 = k.val; rw [hoff]; rfl
  | ⟨1, _⟩ => show k0_off2 k 1 + 1 * co.val = co.val; rw [hoff]; show 0 + 1 * co.val = co.val; omega
  | ⟨2, _⟩ => show k0_off2 k 2 + 1 * kk.val = kk.val; rw [hoff]; show 0 + 1 * kk.val = kk.val; omega

/-! ## One channel's step, and the body's result -/

/-- ONE STEP AT AN INDEX: the block so far plus the trip's channel's contribution. -/
theorem stepVal_apply (x0 : Vec Ideal S1x64x9x784 .f32) (x1 : Vec Ideal S64x128x9 .f32) (k : Fin k0_t1_loop.trips)
    (prev : Vec Ideal S1x128x784 .f32) (co : Fin 128) (p : Fin 784) :
    stepVal x0 x1 k prev (ix3 (0 : Fin 1) co p)
      = prev (ix3 (0 : Fin 1) co p) + chanK x0 x1 (⟨k.val, trips_lt k⟩ : Fin 64) co p := by
  unfold stepVal
  rw [pay2_apply, pay9_apply, pay6_apply]
  simp only [tapXW, X_apply, W_apply, chanK, tapK]

/-- The block starts at zero. -/
theorem pay1_apply (co : Fin 128) (p : Fin 784) : k0_pay1 (F := Ideal) (ix3 (0 : Fin 1) co p) = 0 := by
  unfold k0_pay1
  simp only [shapeCast_ab_1ab_apply, broadcast_apply, zero_word]

/-- The last operation subtracts the block from zero: it negates it. -/
theorem pay3_apply (v5 : Vec Ideal S1x128x784 .f32) (co : Fin 128) (p : Fin 784) :
    k0_pay3 v5 (ix3 (0 : Fin 1) co p) = -(v5 (ix3 (0 : Fin 1) co p)) := by
  unfold k0_pay3
  simp only [shapeCast_ab_1ab_apply, shapeCast_1ab_ab_apply, subf_apply, broadcast_apply, zero_word, zero_sub]

/-- The block after the first `k` channels is the sum of their contributions. -/
theorem accV_apply (x0 : Vec Ideal S1x64x9x784 .f32) (x1 : Vec Ideal S64x128x9 .f32) (co : Fin 128) (p : Fin 784) :
    ∀ k : ℕ, k ≤ 64 → accV x0 x1 k (ix3 (0 : Fin 1) co p)
      = ∑ ci ∈ Finset.range k, (if h : ci < 64 then chanK x0 x1 ⟨ci, h⟩ co p else 0)
  | 0, _ => by
    rw [Finset.sum_range_zero]
    exact pay1_apply co p
  | k + 1, hk => by
    have hk' : k < k0_t1_loop.trips := by rw [trips_eq]; omega
    have h64 : k < 64 := by omega
    rw [Finset.sum_range_succ, ← accV_apply x0 x1 co p k (by omega), dif_pos h64]
    show (if h : k < k0_t1_loop.trips then stepVal x0 x1 ⟨k, h⟩ (accV x0 x1 k) else accV x0 x1 k) (ix3 (0 : Fin 1) co p) = _
    rw [dif_pos hk', stepVal_apply]

/-- THE BODY'S RESULT AT AN INDEX: minus the sum over the 64 channels of their contributions. -/
theorem outVal_apply (x0 : Vec Ideal S1x64x9x784 .f32) (x1 : Vec Ideal S64x128x9 .f32) (co : Fin 128) (p : Fin 784) :
    outVal x0 x1 (ix3 (0 : Fin 1) co p) = -(∑ ci : Fin 64, chanK x0 x1 ci co p) := by
  unfold outVal
  rw [pay3_apply, trips_eq, accV_apply x0 x1 co p 64 (le_refl 64), Finset.sum_range]
  refine congrArg Neg.neg (Finset.sum_congr rfl fun ci _ => ?_)
  rw [dif_pos ci.isLt]

end Cert.AdderKernel

end
-- ==== Proof.LibNaryResult.lean ====
/-
  The result of a host operation over a literal family of six or of nine operand references (a concatenation of six
  or nine arrays), with each operand's contents read at that operand's own reference instead of under a binder over
  the family's index: so stated, a fold over a line of operations goes on rewriting the operands' contents, where under
  the binder the reference is no literal and no result lemma applies to it.
-/
import Idealize.ShloMosaic.Lib.StableHlo.Run

noncomputable section

namespace Idealize.ShloMosaic.StableHlo

variable {τ : Topo} {sig : RefSig} {Val : EltTy → Type}
variable {x0 x1 x2 x3 x4 x5 x6 x7 x8 y : Ref sig .tc}

/-- A host operation over a LITERAL family of 6 operand references: its result with each operand's contents read at
    that operand's own reference. -/
theorem nary6_result
    (f : ((k : Fin 6) → ((![x0, x1, x2, x3, x4, x5] : Fin 6 → Ref sig .tc) k).ty.Contents Val) → y.ty.Contents Val) (hxs hy)
    (F : Valuation τ sig Val) :
    (nary (τ := τ) ![x0, x1, x2, x3, x4, x5] y f hxs hy).result F (Proc.devRef .tc y)
      = f (Fin.cons (F (Proc.devRef .tc x0)) (Fin.cons (F (Proc.devRef .tc x1)) (Fin.cons (F (Proc.devRef .tc x2)) (Fin.cons (F (Proc.devRef .tc x3)) (Fin.cons (F (Proc.devRef .tc x4)) (Fin.cons (F (Proc.devRef .tc x5)) (fun i => i.elim0))))))) := by
  rw [nary_result]; congr 1; funext k; fin_cases k <;> rfl
/-- The same, stated for the simplifier (the result reference un-indexed). -/
theorem nary6_result'
    (f : ((k : Fin 6) → ((![x0, x1, x2, x3, x4, x5] : Fin 6 → Ref sig .tc) k).ty.Contents Val) → y.ty.Contents Val) (hxs hy)
    (F : Valuation τ sig Val) :
    (nary (τ := τ) ![x0, x1, x2, x3, x4, x5] y f hxs hy).result F (no_index (Proc.devRef .tc y))
      = f (Fin.cons (F (Proc.devRef .tc x0)) (Fin.cons (F (Proc.devRef .tc x1)) (Fin.cons (F (Proc.devRef .tc x2)) (Fin.cons (F (Proc.devRef .tc x3)) (Fin.cons (F (Proc.devRef .tc x4)) (Fin.cons (F (Proc.devRef .tc x5)) (fun i => i.elim0))))))) :=
  nary6_result f hxs hy F

/-- A host operation over a LITERAL family of 9 operand references: its result with each operand's contents read at
    that operand's own reference. -/
theorem nary9_result
    (f : ((k : Fin 9) → ((![x0, x1, x2, x3, x4, x5, x6, x7, x8] : Fin 9 → Ref sig .tc) k).ty.Contents Val) → y.ty.Contents Val) (hxs hy)
    (F : Valuation τ sig Val) :
    (nary (τ := τ) ![x0, x1, x2, x3, x4, x5, x6, x7, x8] y f hxs hy).result F (Proc.devRef .tc y)
      = f (Fin.cons (F (Proc.devRef .tc x0)) (Fin.cons (F (Proc.devRef .tc x1)) (Fin.cons (F (Proc.devRef .tc x2)) (Fin.cons (F (Proc.devRef .tc x3)) (Fin.cons (F (Proc.devRef .tc x4)) (Fin.cons (F (Proc.devRef .tc x5)) (Fin.cons (F (Proc.devRef .tc x6)) (Fin.cons (F (Proc.devRef .tc x7)) (Fin.cons (F (Proc.devRef .tc x8)) (fun i => i.elim0)))))))))) := by
  rw [nary_result]; congr 1; funext k; fin_cases k <;> rfl
/-- The same, stated for the simplifier (the result reference un-indexed). -/
theorem nary9_result'
    (f : ((k : Fin 9) → ((![x0, x1, x2, x3, x4, x5, x6, x7, x8] : Fin 9 → Ref sig .tc) k).ty.Contents Val) → y.ty.Contents Val) (hxs hy)
    (F : Valuation τ sig Val) :
    (nary (τ := τ) ![x0, x1, x2, x3, x4, x5, x6, x7, x8] y f hxs hy).result F (no_index (Proc.devRef .tc y))
      = f (Fin.cons (F (Proc.devRef .tc x0)) (Fin.cons (F (Proc.devRef .tc x1)) (Fin.cons (F (Proc.devRef .tc x2)) (Fin.cons (F (Proc.devRef .tc x3)) (Fin.cons (F (Proc.devRef .tc x4)) (Fin.cons (F (Proc.devRef .tc x5)) (Fin.cons (F (Proc.devRef .tc x6)) (Fin.cons (F (Proc.devRef .tc x7)) (Fin.cons (F (Proc.devRef .tc x8)) (fun i => i.elim0)))))))))) :=
  nary9_result f hxs hy F

end Idealize.ShloMosaic.StableHlo

end
-- ==== Proof.LibConcatAxis2.lean ====
/-
  A concatenation of slabs whose extent along the joined axis is one, read at an index given by coordinates,
  for rank-4 arrays joined along axis 2: slabs [A, B, 1, C] joined into [A, B, N, C]. Entry (a, b, n, c) of the
  result is entry (a, b, 0, c) of slab n. Stated for any number of slabs given as a family, and for nine slabs
  given as a literal list (the piece chosen by the family's value at the coordinate).
-/
import Idealize.ShloMosaic.Lib.Pipeline.Value
import Idealize.ShloMosaic.Lib.ValueIdx

noncomputable section

namespace Idealize.ShloMosaic.ConcatAxis2

open Idealize.ShloMosaic Idealize.ShloMosaic.ValueIdx

variable {α : Type}

/-- N slabs of shape [A, B, 1, C] joined along axis 2: entry (a, b, n, c) of the result is entry (a, b, 0, c) of slab n. -/
theorem concatenate_axis2_apply {A B N C : Nat} (f : Fin N → ((⟨4, ![A, B, 1, C]⟩ : Shape).Idx → α))
    (xs : List ((s : Shape) × (s.Idx → α)))
    (hxs : xs = List.ofFn fun n : Fin N => (⟨⟨4, ![A, B, 1, C]⟩, f n⟩ : (s : Shape) × (s.Idx → α)))
    (h : Shape.Concatenates (xs.map (·.1)) ⟨4, ![A, B, N, C]⟩ 2) (a : Fin A) (b : Fin B) (n : Fin N) (c : Fin C) :
    concatenate ⟨4, ![A, B, N, C]⟩ 2 xs h (ix4 a b n c) = f n (ix4 a b 0 c) := by
  subst hxs
  exact concatenate_ofFn_unit_apply (t := ⟨4, ![A, B, N, C]⟩) (s₁ := ⟨4, ![A, B, 1, C]⟩) 2 f h rfl rfl (ix4 a b n c) n rfl (ix4 a b 0 c)
    (fun d hd => by match d with | ⟨0, _⟩ => rfl | ⟨1, _⟩ => rfl | ⟨2, _⟩ => exact absurd rfl hd | ⟨3, _⟩ => rfl)

/-- Nine slabs joined along axis 2: entry (a, b, k, c) is entry (a, b, 0, c) of slab k. -/
theorem slabs9_apply {A B C : Nat} (x0 x1 x2 x3 x4 x5 x6 x7 x8 : (⟨4, ![A, B, 1, C]⟩ : Shape).Idx → α)
    (h : Shape.Concatenates [(⟨4, ![A, B, 1, C]⟩ : Shape), ⟨4, ![A, B, 1, C]⟩, ⟨4, ![A, B, 1, C]⟩, ⟨4, ![A, B, 1, C]⟩, ⟨4, ![A, B, 1, C]⟩,
      ⟨4, ![A, B, 1, C]⟩, ⟨4, ![A, B, 1, C]⟩, ⟨4, ![A, B, 1, C]⟩, ⟨4, ![A, B, 1, C]⟩] ⟨4, ![A, B, 9, C]⟩ 2)
    (a : Fin A) (b : Fin B) (k : Fin 9) (c : Fin C) :
    concatenate ⟨4, ![A, B, 9, C]⟩ 2 [⟨⟨4, ![A, B, 1, C]⟩, x0⟩, ⟨⟨4, ![A, B, 1, C]⟩, x1⟩, ⟨⟨4, ![A, B, 1, C]⟩, x2⟩, ⟨⟨4, ![A, B, 1, C]⟩, x3⟩,
        ⟨⟨4, ![A, B, 1, C]⟩, x4⟩, ⟨⟨4, ![A, B, 1, C]⟩, x5⟩, ⟨⟨4, ![A, B, 1, C]⟩, x6⟩, ⟨⟨4, ![A, B, 1, C]⟩, x7⟩, ⟨⟨4, ![A, B, 1, C]⟩, x8⟩] h (ix4 a b k c)
      = (![x0, x1, x2, x3, x4, x5, x6, x7, x8] k) (ix4 a b 0 c) :=
  concatenate_axis2_apply ![x0, x1, x2, x3, x4, x5, x6, x7, x8] _ rfl h a b k c

end Idealize.ShloMosaic.ConcatAxis2

end
-- ==== Proof.Spec.lean ====
/-
  The function both programs compute, stated once over the zero-padded input.

  For a padded input `xp : [4, 64, 30, 30]` (the argument `x` with a border of one zero row and column on each
  side of its last two axes) and a weight `w : [128, 64, 3, 3]`, the result at `(n, co, i, j)` is

      - ∑ kh < 3, ∑ kw < 3, ∑ ci < 64, | xp (n, ci, i + kh, j + kw) - w (co, ci, kh, kw) |

  over the extended reals, the absolute value of `d` being `max d (-d)`.  The kernel adds the same terms
  channel by channel (for each `ci` the nine taps `kk = 3 * kh + kw` in turn), the reference tap by tap (for each tap
  the 64 channels): addition on the extended reals is commutative and associative, so both are this sum.
-/
import Idealize.ShloMosaic.PureOps.Ideal
import Idealize.ShloMosaic.Lib.ValueIdx

noncomputable section

namespace Cert.AdderSpec

open Idealize.ShloMosaic Idealize.ShloMosaic.ValueIdx

/-- The padded input's shape, the weight's and the result's. -/
abbrev SP : Shape := ⟨4, ![4, 64, 30, 30]⟩
abbrev SW : Shape := ⟨4, ![128, 64, 3, 3]⟩
abbrev SR : Shape := ⟨4, ![4, 128, 28, 28]⟩

/-- One term: the distance between the padded input at the window position `(i + kh, j + kw)` of channel `ci` and
    the weight's tap `(kh, kw)` of that channel for output channel `co`. -/
def term (xp : SP.Idx → EReal) (w : SW.Idx → EReal) (n : Fin 4) (co : Fin 128) (i j : Fin 28) (kh kw : Fin 3) (ci : Fin 64) : EReal :=
  max (xp (ix4 n ci ⟨i.val + kh.val, by omega⟩ ⟨j.val + kw.val, by omega⟩) - w (ix4 co ci kh kw))
    (-(xp (ix4 n ci ⟨i.val + kh.val, by omega⟩ ⟨j.val + kw.val, by omega⟩) - w (ix4 co ci kh kw)))

/-- The result: minus the sum of the terms over the nine taps and the 64 channels. -/
def G (xp : SP.Idx → EReal) (w : SW.Idx → EReal) : SR.Idx → EReal := fun q =>
  -(∑ kh : Fin 3, ∑ kw : Fin 3, ∑ ci : Fin 64, term xp w (q 0) (q 1) (q 2) (q 3) kh kw ci)

end Cert.AdderSpec

end
-- ==== Proof.HostPrefix.lean ====
/-
  The arrays the kernel region is launched on, read at an index.

  Before the region the program pads the input x : [4, 64, 28, 28] by one zero row and column on each side of its last
  two axes (the padded array XP : [4, 64, 30, 30]), takes for each of the nine taps kk = 3 * kh + kw the window of XP
  starting at row kh, column kw, of extent 28 by 28, flattens each window's two axes into one of 784 positions
  p = 28 * i + j, and joins the nine along a new axis: the joined array at (n, ci, kk, p) is
  XP (n, ci, p / 28 + kk / 3, p % 28 + kk % 3). The weight w : [128, 64, 3, 3] has its first two axes exchanged and
  its last two flattened: the result at (ci, co, kk) is w (co, ci, kk / 3, kk % 3).

  The line of operations is cut into four stretches (the constant, the padding, the nine windows, the joining and
  the weight), each read at the buffers the next one needs; the joined array is then read through the concatenation,
  the broadcast of a unit axis, the flattening and the slice, the weight through the flattening and the transpose.
-/
import proofs.«133957_j41729902248401_2_alg».proof.Proof.Gen.KernelIdeal.Launch
import proofs.«133957_j41729902248401_2_alg».proof.Proof.LibNaryResult
import proofs.«133957_j41729902248401_2_alg».proof.Proof.LibConcatAxis2
import proofs.«133957_j41729902248401_2_alg».proof.Proof.Spec
import Idealize.ShloMosaic.Lib.StableHlo.Run
import Idealize.ShloMosaic.Lib.Pipeline.Frame
import Idealize.ShloMosaic.Lib.Pipeline.Value
import Idealize.ShloMosaic.Lib.ValueIdx

noncomputable section

namespace Cert.AdderHost

open Idealize.ShloMosaic Idealize.ShloMosaic.ValueIdx Idealize.ShloMosaic.StableHlo
open Cert.KernelIdeal Cert.KernelIdeal.Gen

variable {F : FTy → Type} [FloatOps F]

open Idealize.ShloMosaic.ConcatAxis2

/-- One tap's slab: the window of the padded array starting at row a, column b, flattened to 784 positions,
    with a unit axis inserted before the position axis. -/
abbrev slab {α : Type} (X : S4x64x30x30.Idx → α) (a b : Nat) (hs : S4x64x30x30.Slices ![0, 0, a, b] S4x64x28x28) : S4x64x1x784.Idx → α :=
  broadcastInDim S4x64x1x784 ![0, 1, 3] bcast_S4x64x784_S4x64x1x784_0_1_3
    (shapeCast S4x64x784 (extractStridedSlice S4x64x28x28 ![0, 0, a, b] X hs) shapeCasts_S4x64x28x28_S4x64x784)

theorem slab_apply {α : Type} (X : S4x64x30x30.Idx → α) (a b : Nat) (ha : a ≤ 2) (hb : b ≤ 2)
    (hs : S4x64x30x30.Slices ![0, 0, a, b] S4x64x28x28) (n : Fin 4) (ci : Fin 64) (p : Fin 784) :
    slab X a b hs (ix4 n ci 0 p) = X (ix4 n ci ⟨p.val / 28 + a, by omega⟩ ⟨p.val % 28 + b, by omega⟩) := by
  refine (broadcastInDim_apply _ bcast_S4x64x784_S4x64x1x784_0_1_3 _ (ix4 n ci 0 p) (ix3 n ci p) ?_).trans ?_
  · intro d; match d with | ⟨0, _⟩ => rfl | ⟨1, _⟩ => rfl | ⟨2, _⟩ => rfl
  refine (shapeCast_apply _ shapeCasts_S4x64x28x28_S4x64x784 (ix3 n ci p) (ix4 n ci ⟨p.val / 28, by omega⟩ ⟨p.val % 28, by omega⟩) ?_).trans ?_
  · rw [Shape.rowMajor_val_four, Shape.rowMajor_val_three]
    show ((n.val * 64 + ci.val) * 28 + p.val / 28) * 28 + p.val % 28 = (n.val * 64 + ci.val) * 784 + p.val
    omega
  refine extractStridedSlice_apply _ X hs _ _ fun d => ?_
  match d with
  | ⟨0, _⟩ => show n.val = 0 + n.val; omega
  | ⟨1, _⟩ => show ci.val = 0 + ci.val; omega
  | ⟨2, _⟩ => show p.val / 28 + a = a + p.val / 28; omega
  | ⟨3, _⟩ => show p.val % 28 + b = b + p.val % 28; omega

/-- The weight, its first two axes exchanged and its last two flattened, read at an index. -/
theorem wflat_apply {α : Type} (W : S128x64x3x3.Idx → α) (ci : Fin 64) (co : Fin 128) (kk : Fin 9) :
    shapeCast S64x128x9 (transpose S64x128x3x3 [1, 0, 2, 3] W transposes_S128x64x3x3_S64x128x3x3_1_0_2_3) shapeCasts_S64x128x3x3_S64x128x9 (ix3 ci co kk)
      = W (ix4 co ci ⟨kk.val / 3, by omega⟩ ⟨kk.val % 3, by omega⟩) := by
  refine (shapeCast_apply _ shapeCasts_S64x128x3x3_S64x128x9 (ix3 ci co kk) (ix4 ci co ⟨kk.val / 3, by omega⟩ ⟨kk.val % 3, by omega⟩) ?_).trans ?_
  · rw [Shape.rowMajor_val_four, Shape.rowMajor_val_three]
    show ((ci.val * 128 + co.val) * 3 + kk.val / 3) * 3 + kk.val % 3 = (ci.val * 128 + co.val) * 9 + kk.val
    omega
  refine transpose_apply _ W transposes_S128x64x3x3_S64x128x3x3_1_0_2_3 _ _ fun d => ?_
  match d with
  | ⟨0, _⟩ => rfl
  | ⟨1, _⟩ => rfl
  | ⟨2, _⟩ => rfl
  | ⟨3, _⟩ => rfl

/-- The padded input: the argument with a border of one zero row and column on each side of its last two axes. -/
abbrev XP (μ : Valuation τ sig (Elt F)) : (⟨S4x64x30x30, .f32⟩ : BufTy).Contents (Elt F) :=
  pad S4x64x30x30 ![0, 0, 1, 1] ![0, 0, 1, 1] ![0, 0, 0, 0] (μ (Proc.devRef .tc main_arg0)) (sitofp .f32 (constantI S_ 32 0#32))
    pads_S4x64x28x28_S4x64x30x30_000_000_110_110 h_S_

/-! ## The line of operations in four stretches

The constant, then the padding, then the nine windows (each sliced, flattened and given a unit axis), then the
joining of the windows with the exchange and flattening of the weight: the contents after the whole line are those
after the last stretch from the contents after the third, and so on back to the arguments. -/

theorem after_split (μ : Valuation τ sig (Elt F)) :
    StableHlo.after (List.flatten [hostOps0, hostOps0_1, hostOps0_2]) μ
      = StableHlo.after (List.drop 27 hostOps0_2) (StableHlo.after (List.take 27 hostOps0_2) (StableHlo.after hostOps0_1 (StableHlo.after hostOps0 μ))) := by
  rw [List.flatten_cons, List.flatten_cons, List.flatten_cons, List.flatten_nil, List.append_nil, StableHlo.after_append, StableHlo.after_append,
    ← StableHlo.after_append (List.take 27 hostOps0_2), List.take_append_drop]

/-- After the constant and the padding, the padded array's buffer holds the padded input. -/
theorem pre_v0 (μ : Valuation τ sig (Elt F)) :
    StableHlo.after (hostOps0_1 : List (HloOp τ sig (Elt F))) (StableHlo.after hostOps0 μ) (Proc.devRef .tc main_v0) = XP μ := by
  simp only [hostOps0, hostOps0_1]
  after_results
  rfl

/-- The constant and the padding leave the weight as it was. -/
theorem pre_arg1 (μ : Valuation τ sig (Elt F)) :
    StableHlo.after (hostOps0_1 : List (HloOp τ sig (Elt F))) (StableHlo.after hostOps0 μ) (Proc.devRef .tc main_arg1) = μ (Proc.devRef .tc main_arg1) := by
  simp only [hostOps0, hostOps0_1]
  after_results

/-! ### The nine windows: each buffer holds its tap's slab of the padded array -/

theorem mid_v19 (M : Valuation τ sig (Elt F)) :
    StableHlo.after (List.take 27 (hostOps0_2 : List (HloOp τ sig (Elt F)))) M (Proc.devRef .tc main_v19)
      = slab (M (Proc.devRef .tc main_v0)) 0 0 slices_S4x64x30x30_S4x64x28x28_0_0_0_0 := by
  simp only [hostOps0_2, List.take_succ_cons, List.take_zero]
  after_results
  rfl

theorem mid_v20 (M : Valuation τ sig (Elt F)) :
    StableHlo.after (List.take 27 (hostOps0_2 : List (HloOp τ sig (Elt F)))) M (Proc.devRef .tc main_v20)
      = slab (M (Proc.devRef .tc main_v0)) 0 1 slices_S4x64x30x30_S4x64x28x28_0_0_0_1 := by
  simp only [hostOps0_2, List.take_succ_cons, List.take_zero]
  after_results
  rfl

theorem mid_v21 (M : Valuation τ sig (Elt F)) :
    StableHlo.after (List.take 27 (hostOps0_2 : List (HloOp τ sig (Elt F)))) M (Proc.devRef .tc main_v21)
      = slab (M (Proc.devRef .tc main_v0)) 0 2 slices_S4x64x30x30_S4x64x28x28_0_0_0_2 := by
  simp only [hostOps0_2, List.take_succ_cons, List.take_zero]
  after_results
  rfl

theorem mid_v22 (M : Valuation τ sig (Elt F)) :
    StableHlo.after (List.take 27 (hostOps0_2 : List (HloOp τ sig (Elt F)))) M (Proc.devRef .tc main_v22)
      = slab (M (Proc.devRef .tc main_v0)) 1 0 slices_S4x64x30x30_S4x64x28x28_0_0_1_0 := by
  simp only [hostOps0_2, List.take_succ_cons, List.take_zero]
  after_results
  rfl

theorem mid_v23 (M : Valuation τ sig (Elt F)) :
    StableHlo.after (List.take 27 (hostOps0_2 : List (HloOp τ sig (Elt F)))) M (Proc.devRef .tc main_v23)
      = slab (M (Proc.devRef .tc main_v0)) 1 1 slices_S4x64x30x30_S4x64x28x28_0_0_1_1 := by
  simp only [hostOps0_2, List.take_succ_cons, List.take_zero]
  after_results
  rfl

theorem mid_v24 (M : Valuation τ sig (Elt F)) :
    StableHlo.after (List.take 27 (hostOps0_2 : List (HloOp τ sig (Elt F)))) M (Proc.devRef .tc main_v24)
      = slab (M (Proc.devRef .tc main_v0)) 1 2 slices_S4x64x30x30_S4x64x28x28_0_0_1_2 := by
  simp only [hostOps0_2, List.take_succ_cons, List.take_zero]
  after_results
  rfl

theorem mid_v25 (M : Valuation τ sig (Elt F)) :
    StableHlo.after (List.take 27 (hostOps0_2 : List (HloOp τ sig (Elt F)))) M (Proc.devRef .tc main_v25)
      = slab (M (Proc.devRef .tc main_v0)) 2 0 slices_S4x64x30x30_S4x64x28x28_0_0_2_0 := by
  simp only [hostOps0_2, List.take_succ_cons, List.take_zero]
  after_results
  rfl

theorem mid_v26 (M : Valuation τ sig (Elt F)) :
    StableHlo.after (List.take 27 (hostOps0_2 : List (HloOp τ sig (Elt F)))) M (Proc.devRef .tc main_v26)
      = slab (M (Proc.devRef .tc main_v0)) 2 1 slices_S4x64x30x30_S4x64x28x28_0_0_2_1 := by
  simp only [hostOps0_2, List.take_succ_cons, List.take_zero]
  after_results
  rfl

theorem mid_v27 (M : Valuation τ sig (Elt F)) :
    StableHlo.after (List.take 27 (hostOps0_2 : List (HloOp τ sig (Elt F)))) M (Proc.devRef .tc main_v27)
      = slab (M (Proc.devRef .tc main_v0)) 2 2 slices_S4x64x30x30_S4x64x28x28_0_0_2_2 := by
  simp only [hostOps0_2, List.take_succ_cons, List.take_zero]
  after_results
  rfl

/-- The windows' operations leave the weight as it was. -/
theorem mid_arg1 (M : Valuation τ sig (Elt F)) :
    StableHlo.after (List.take 27 (hostOps0_2 : List (HloOp τ sig (Elt F)))) M (Proc.devRef .tc main_arg1) = M (Proc.devRef .tc main_arg1) := by
  simp only [hostOps0_2, List.take_succ_cons, List.take_zero]
  after_results

/-- The last stretch at the joined array: the nine slabs' buffers joined along axis 2. -/
theorem tail_v28 (M : Valuation τ sig (Elt F)) :
    StableHlo.after (List.drop 27 (hostOps0_2 : List (HloOp τ sig (Elt F)))) M (Proc.devRef .tc main_v28)
      = concatenate S4x64x9x784 2 [⟨S4x64x1x784, M (Proc.devRef .tc main_v19)⟩, ⟨S4x64x1x784, M (Proc.devRef .tc main_v20)⟩,
          ⟨S4x64x1x784, M (Proc.devRef .tc main_v21)⟩, ⟨S4x64x1x784, M (Proc.devRef .tc main_v22)⟩, ⟨S4x64x1x784, M (Proc.devRef .tc main_v23)⟩,
          ⟨S4x64x1x784, M (Proc.devRef .tc main_v24)⟩, ⟨S4x64x1x784, M (Proc.devRef .tc main_v25)⟩, ⟨S4x64x1x784, M (Proc.devRef .tc main_v26)⟩,
          ⟨S4x64x1x784, M (Proc.devRef .tc main_v27)⟩] concatenates_S4x64x1x784_S4x64x1x784_S4x64x1x784_S4x64x1x784_S4x64x1x784_S4x64x1x784_S4x64x1x784_S4x64x1x784_S4x64x1x784_S4x64x9x784_d2 := by
  simp only [hostOps0_2, List.drop_succ_cons, List.drop_zero, after_cons, after_nil]
  rw [reshape_result_ne]; rotate_left; decide
  rw [unary_result_ne]; rotate_left; decide
  rw [nary9_result]
  rfl

/-- The last stretch at the flattened weight: the weight's buffer, its first two axes exchanged, its last two flattened. -/
theorem tail_v30 (M : Valuation τ sig (Elt F)) :
    StableHlo.after (List.drop 27 (hostOps0_2 : List (HloOp τ sig (Elt F)))) M (Proc.devRef .tc main_v30)
      = shapeCast S64x128x9 (transpose S64x128x3x3 [1, 0, 2, 3] (M (Proc.devRef .tc main_arg1)) transposes_S128x64x3x3_S64x128x3x3_1_0_2_3)
          shapeCasts_S64x128x3x3_S64x128x9 := by
  simp only [hostOps0_2, List.drop_succ_cons, List.drop_zero]
  after_results
  rfl

/-! ## The two arrays the kernel region is launched on, whole -/

/-- The joined array after the whole line: the nine taps' slabs of the padded input, joined along axis 2. -/
theorem xs_term (μ : Valuation τ sig (Elt F)) :
    StableHlo.after (List.flatten [hostOps0, hostOps0_1, hostOps0_2]) μ (Proc.devRef .tc main_v28)
      = concatenate S4x64x9x784 2 [⟨S4x64x1x784, slab (XP μ) 0 0 slices_S4x64x30x30_S4x64x28x28_0_0_0_0⟩,
          ⟨S4x64x1x784, slab (XP μ) 0 1 slices_S4x64x30x30_S4x64x28x28_0_0_0_1⟩,
          ⟨S4x64x1x784, slab (XP μ) 0 2 slices_S4x64x30x30_S4x64x28x28_0_0_0_2⟩,
          ⟨S4x64x1x784, slab (XP μ) 1 0 slices_S4x64x30x30_S4x64x28x28_0_0_1_0⟩,
          ⟨S4x64x1x784, slab (XP μ) 1 1 slices_S4x64x30x30_S4x64x28x28_0_0_1_1⟩,
          ⟨S4x64x1x784, slab (XP μ) 1 2 slices_S4x64x30x30_S4x64x28x28_0_0_1_2⟩,
          ⟨S4x64x1x784, slab (XP μ) 2 0 slices_S4x64x30x30_S4x64x28x28_0_0_2_0⟩,
          ⟨S4x64x1x784, slab (XP μ) 2 1 slices_S4x64x30x30_S4x64x28x28_0_0_2_1⟩,
          ⟨S4x64x1x784, slab (XP μ) 2 2 slices_S4x64x30x30_S4x64x28x28_0_0_2_2⟩] concatenates_S4x64x1x784_S4x64x1x784_S4x64x1x784_S4x64x1x784_S4x64x1x784_S4x64x1x784_S4x64x1x784_S4x64x1x784_S4x64x1x784_S4x64x9x784_d2 := by
  rw [after_split, tail_v28, mid_v19, mid_v20, mid_v21, mid_v22, mid_v23, mid_v24, mid_v25, mid_v26, mid_v27, pre_v0]

/-- The flattened weight after the whole line. -/
theorem wT_term (μ : Valuation τ sig (Elt F)) :
    StableHlo.after (List.flatten [hostOps0, hostOps0_1, hostOps0_2]) μ (Proc.devRef .tc main_v30)
      = shapeCast S64x128x9 (transpose S64x128x3x3 [1, 0, 2, 3] (μ (Proc.devRef .tc main_arg1)) transposes_S128x64x3x3_S64x128x3x3_1_0_2_3)
          shapeCasts_S64x128x3x3_S64x128x9 := by
  rw [after_split, tail_v30, mid_arg1, pre_arg1]

/-! ## Read at an index -/

/-- The joined array at (n, ci, kk, p): the padded input of channel ci at the window position of output pixel p
    (row p / 28, column p % 28) moved by tap kk (kk / 3 rows, kk % 3 columns). -/
theorem xs_apply (μ : Valuation τ sig (Elt F)) (n : Fin 4) (ci : Fin 64) (kk : Fin 9) (p : Fin 784) :
    (StableHlo.after (List.flatten [hostOps0, hostOps0_1, hostOps0_2]) μ (Proc.devRef .tc main_v28) : S4x64x9x784.Idx → Elt F .f32) (ix4 n ci kk p)
      = XP μ (ix4 n ci ⟨p.val / 28 + kk.val / 3, by omega⟩ ⟨p.val % 28 + kk.val % 3, by omega⟩) := by
  refine (congrFun (xs_term μ) (ix4 n ci kk p)).trans ?_
  refine (slabs9_apply _ _ _ _ _ _ _ _ _ _ n ci kk p).trans ?_
  match kk with
  | ⟨0, _⟩ => dsimp only; exact slab_apply (XP μ) 0 0 (by omega) (by omega) slices_S4x64x30x30_S4x64x28x28_0_0_0_0 n ci p
  | ⟨1, _⟩ => dsimp only; exact slab_apply (XP μ) 0 1 (by omega) (by omega) slices_S4x64x30x30_S4x64x28x28_0_0_0_1 n ci p
  | ⟨2, _⟩ => dsimp only; exact slab_apply (XP μ) 0 2 (by omega) (by omega) slices_S4x64x30x30_S4x64x28x28_0_0_0_2 n ci p
  | ⟨3, _⟩ => dsimp only; exact slab_apply (XP μ) 1 0 (by omega) (by omega) slices_S4x64x30x30_S4x64x28x28_0_0_1_0 n ci p
  | ⟨4, _⟩ => dsimp only; exact slab_apply (XP μ) 1 1 (by omega) (by omega) slices_S4x64x30x30_S4x64x28x28_0_0_1_1 n ci p
  | ⟨5, _⟩ => dsimp only; exact slab_apply (XP μ) 1 2 (by omega) (by omega) slices_S4x64x30x30_S4x64x28x28_0_0_1_2 n ci p
  | ⟨6, _⟩ => dsimp only; exact slab_apply (XP μ) 2 0 (by omega) (by omega) slices_S4x64x30x30_S4x64x28x28_0_0_2_0 n ci p
  | ⟨7, _⟩ => dsimp only; exact slab_apply (XP μ) 2 1 (by omega) (by omega) slices_S4x64x30x30_S4x64x28x28_0_0_2_1 n ci p
  | ⟨8, _⟩ => dsimp only; exact slab_apply (XP μ) 2 2 (by omega) (by omega) slices_S4x64x30x30_S4x64x28x28_0_0_2_2 n ci p

/-- The flattened weight at (ci, co, kk): the weight of output channel co, input channel ci, at tap (kk / 3, kk % 3). -/
theorem wT_apply (μ : Valuation τ sig (Elt F)) (ci : Fin 64) (co : Fin 128) (kk : Fin 9) :
    (StableHlo.after (List.flatten [hostOps0, hostOps0_1, hostOps0_2]) μ (Proc.devRef .tc main_v30) : S64x128x9.Idx → Elt F .f32) (ix3 ci co kk)
      = (μ (Proc.devRef .tc main_arg1) : S128x64x3x3.Idx → Elt F .f32) (ix4 co ci ⟨kk.val / 3, by omega⟩ ⟨kk.val % 3, by omega⟩) := by
  refine (congrFun (wT_term μ) (ix3 ci co kk)).trans ?_
  exact wflat_apply _ ci co kk

/-- At the exact instance the padded input is an array of extended reals over the specification's padded shape. -/
example (μ : Valuation τ sig (Elt Ideal)) : Cert.AdderSpec.SP.Idx → EReal := XP μ

end Cert.AdderHost

end
-- ==== Proof.SumOrder.lean ====
/-
  The specification's sum taken channel by channel.

  The result at (n, co, i, j) is minus the sum of the terms over the three tap rows, the three tap columns and the 64
  channels. Addition on the extended reals is commutative and associative, so the same sum may be taken with the
  channels outermost: for each channel the nine taps in row-major order, added one after the other starting from zero.
-/
import proofs.«133957_j41729902248401_2_alg».proof.Proof.Spec
import Mathlib.Algebra.BigOperators.Fin

noncomputable section

namespace Cert.AdderSpec

open Idealize.ShloMosaic Idealize.ShloMosaic.ValueIdx

/-- One channel's nine terms, added in row-major order of the taps starting from zero. -/
def chan (xp : SP.Idx → EReal) (w : SW.Idx → EReal) (n : Fin 4) (co : Fin 128) (i j : Fin 28) (ci : Fin 64) : EReal :=
  0 + term xp w n co i j 0 0 ci + term xp w n co i j 0 1 ci + term xp w n co i j 0 2 ci + term xp w n co i j 1 0 ci + term xp w n co i j 1 1 ci + term xp w n co i j 1 2 ci + term xp w n co i j 2 0 ci + term xp w n co i j 2 1 ci + term xp w n co i j 2 2 ci

/-- The result is minus the sum over the channels of each channel's nine terms. -/
theorem G_eq_chan (xp : SP.Idx → EReal) (w : SW.Idx → EReal) (q : SR.Idx) :
    G xp w q = -(∑ ci : Fin 64, chan xp w (q 0) (q 1) (q 2) (q 3) ci) := by
  unfold G
  congr 1
  simp only [chan, zero_add, Fin.sum_univ_three, Finset.sum_add_distrib, add_assoc]
  ac_rfl

end Cert.AdderSpec

end
-- ==== Proof.BridgeI.lean ====
/-
  The idealized kernel program's result is the specification's function of the padded input and the weight.

  The region's result at `(n, co, p)` is minus the sum over the 64 channels of the channel's nine distances between
  the laid-out input at `(n, ci, kk, p)` and the re-laid weight at `(ci, co, kk)`.  The laid-out input at
  `(n, ci, kk, p)` is the padded input at row `p / 28 + kk / 3` and column `p % 28 + kk % 3` of channel `ci`,
  and the re-laid weight at `(ci, co, kk)` is the weight at `(co, ci, kk / 3, kk % 3)`; the last host operation
  reads position `p = 28 i + j` at `(i, j)`.  So each distance is the specification's term at tap
  `(kh, kw) = (kk / 3, kk % 3)`, and the sums agree after reordering.
-/
import proofs.«133957_j41729902248401_2_alg».proof.Proof.TailI
import proofs.«133957_j41729902248401_2_alg».proof.Proof.KernelTerm
import proofs.«133957_j41729902248401_2_alg».proof.Proof.HostPrefix
import proofs.«133957_j41729902248401_2_alg».proof.Proof.SumOrder

set_option maxRecDepth 16384

noncomputable section

namespace Cert.KernelIdeal.Frame

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ)

/-- The position of `(i, j)` in a row of 28 × 28 = 784 positions. -/
def pos (i j : Fin 28) : Fin 784 := ⟨i.val * 28 + j.val, by omega⟩

/-- One distance of the kernel, at tap `kk`, is the specification's term at tap `(kk / 3, kk % 3)`. -/
theorem tap_eq (c : Dev nD) (n : Fin 4) (co : Fin 128) (i j : Fin 28) (ci : Fin 64) (kk : Fin 9) (kh kw : Fin 3)
    (hkh : kk.val / 3 = kh.val) (hkw : kk.val % 3 = kw.val) :
    Cert.AdderKernel.tapK (xsRow (V m c main_v28) n) (V m c main_v30) ci kk co (pos i j)
      = Cert.AdderSpec.term (Cert.AdderHost.XP (F := Ideal) (fun b => m (c, b))) (m ((c.tc : Thread nD τ).loc main_arg1)) n co i j kh kw ci := by
  have h1 : (pos i j).val / 28 + kk.val / 3 = i.val + kh.val := by
    show (i.val * 28 + j.val) / 28 + kk.val / 3 = i.val + kh.val
    omega
  have h2 : (pos i j).val % 28 + kk.val % 3 = j.val + kw.val := by
    show (i.val * 28 + j.val) % 28 + kk.val % 3 = j.val + kw.val
    omega
  have hx : xsRow (V m c main_v28) n (ix4 (0 : Fin 1) ci kk (pos i j))
      = Cert.AdderHost.XP (F := Ideal) (fun b => m (c, b)) (ix4 n ci ⟨i.val + kh.val, by omega⟩ ⟨j.val + kw.val, by omega⟩) := by
    refine (Cert.AdderHost.xs_apply (F := Ideal) (fun b => m (c, b)) n ci kk (pos i j)).trans ?_
    exact congrArg (Cert.AdderHost.XP (F := Ideal) (fun b => m (c, b))) (by
      funext a
      match a with
      | ⟨0, _⟩ => rfl
      | ⟨1, _⟩ => rfl
      | ⟨2, _⟩ => exact Fin.ext h1
      | ⟨3, _⟩ => exact Fin.ext h2)
  have hw : V m c main_v30 (ix3 ci co kk) = m ((c.tc : Thread nD τ).loc main_arg1) (ix4 co ci kh kw) := by
    refine (Cert.AdderHost.wT_apply (F := Ideal) (fun b => m (c, b)) ci co kk).trans ?_
    exact congrArg (m ((c.tc : Thread nD τ).loc main_arg1)) (by
      funext a
      match a with
      | ⟨0, _⟩ => rfl
      | ⟨1, _⟩ => rfl
      | ⟨2, _⟩ => exact Fin.ext hkh
      | ⟨3, _⟩ => exact Fin.ext hkw)
  unfold Cert.AdderKernel.tapK Cert.AdderSpec.term
  rw [hx, hw]

/-- The last host operation reads position `28 i + j` of the region's result at `(i, j)`. -/
theorem reshape_apply {α : Type} (X : S4x128x784.Idx → α) (n : Fin 4) (co : Fin 128) (i j : Fin 28) :
    shapeCast S4x128x28x28 X shapeCasts_S4x128x784_S4x128x28x28 (ix4 n co i j) = X (ix3 n co (pos i j)) :=
  shapeCast_apply X shapeCasts_S4x128x784_S4x128x28x28 (ix4 n co i j) (ix3 n co (pos i j)) (by
    rw [Shape.rowMajor_val_three, Shape.rowMajor_val_four]
    show (n.val * 128 + co.val) * 784 + (i.val * 28 + j.val) = ((n.val * 128 + co.val) * 28 + i.val) * 28 + j.val
    omega)

/-- The region's result at `(n, co, p)` is the body's function of sample `n`'s block and the weight at `(0, co, p)`. -/
theorem GK_apply {F : FTy → Type} [FloatOps F] (xs : S4x64x9x784.Idx → Elt F .f32) (wT : S64x128x9.Idx → Elt F .f32) (n : Fin 4) (co : Fin 128) (p : Fin 784) :
    GK xs wT (ix3 n co p) = outVal (xsRow xs n) wT (ix3 (0 : Fin 1) co p) := rfl

/-- One channel's nine distances of the kernel are the specification's nine terms of that channel. -/
theorem chan_eq (c : Dev nD) (n : Fin 4) (co : Fin 128) (i j : Fin 28) (ci : Fin 64) :
    Cert.AdderKernel.chanK (xsRow (V m c main_v28) n) (V m c main_v30) ci co (pos i j)
      = Cert.AdderSpec.chan (Cert.AdderHost.XP (F := Ideal) (fun b => m (c, b))) (m ((c.tc : Thread nD τ).loc main_arg1)) n co i j ci := by
  unfold Cert.AdderKernel.chanK Cert.AdderSpec.chan
  rw [tap_eq m c n co i j ci 0 0 0 (by decide) (by decide), tap_eq m c n co i j ci 1 0 1 (by decide) (by decide),
    tap_eq m c n co i j ci 2 0 2 (by decide) (by decide), tap_eq m c n co i j ci 3 1 0 (by decide) (by decide),
    tap_eq m c n co i j ci 4 1 1 (by decide) (by decide), tap_eq m c n co i j ci 5 1 2 (by decide) (by decide),
    tap_eq m c n co i j ci 6 2 0 (by decide) (by decide), tap_eq m c n co i j ci 7 2 1 (by decide) (by decide),
    tap_eq m c n co i j ci 8 2 2 (by decide) (by decide)]

/-- The program's result is the specification's function of the padded input and the weight. -/
theorem result_eq_G (c : Dev nD) :
    shapeCast S4x128x28x28 (GK (V m c main_v28) (V m c main_v30)) shapeCasts_S4x128x784_S4x128x28x28
      = Cert.AdderSpec.G (Cert.AdderHost.XP (F := Ideal) (fun b => m (c, b))) (m ((c.tc : Thread nD τ).loc main_arg1)) := by
  funext q
  obtain ⟨n, co, i, j, rfl⟩ : ∃ (n : Fin 4) (co : Fin 128) (i j : Fin 28), q = ix4 n co i j := ⟨q 0, q 1, q 2, q 3, eq_ix4 q⟩
  rw [reshape_apply, GK_apply, Cert.AdderKernel.outVal_apply, Cert.AdderSpec.G_eq_chan]
  exact congrArg Neg.neg (Finset.sum_congr rfl fun ci _ => chan_eq m c n co i j ci)

end Cert.KernelIdeal.Frame

end
-- ==== Proof.RefIsSpec.lean ====
/-
  The reference program computes the specification.

  The reference pads the input once, then for each of the nine taps (kh, kw), in row-major order, takes the window
  of the padded input at offset (kh, kw), subtracts the weight's tap (kh, kw) channel by channel, takes absolute
  values, sums over the 64 channels and adds the result to an accumulator that starts at zero; the result is minus
  the accumulator. At an output index (n, co, i, j) a tap's stage is therefore the sum over the channels ci of
  | xp (n, ci, i + kh, j + kw) - w (co, ci, kh, kw) |, and the accumulator is zero plus the nine such sums added
  one after the other. Addition on the extended reals is associative, so this is the specification's sum over kh of
  the sum over kw. The padded input stays an opaque array throughout: only its reads at an index are used.
-/
import proofs.«133957_j41729902248401_2_alg».proof.Proof.Gen.ReferenceIdeal.Read
import proofs.«133957_j41729902248401_2_alg».proof.Proof.Spec

noncomputable section

namespace Cert.AdderRef

open Idealize.ShloMosaic Idealize.ShloMosaic.ValueIdx Cert.ReferenceIdeal Cert.ReferenceIdeal.Gen Cert.ReferenceIdeal.Read Cert.AdderSpec

/-- The padded input, as the reference's first stage states it: the argument with a border of zeros of width one
    on its last two axes. -/
abbrev XP (x : (⟨S4x64x28x28, .f32⟩ : BufTy).Contents (Elt Ideal)) : (⟨S4x64x30x30, .f32⟩ : BufTy).Contents (Elt Ideal) :=
  val_main_v0 (F := Ideal) x

/-- The padded input is the pad operation's value at the argument and the converted integer zero. -/
theorem XP_eq (x : (⟨S4x64x28x28, .f32⟩ : BufTy).Contents (Elt Ideal)) :
    XP x = pad S4x64x30x30 ![0, 0, 1, 1] ![0, 0, 1, 1] ![0, 0, 0, 0] x
      (sitofp (F := Ideal) .f32 (constantI S_ 32 0#32))
      pads_S4x64x28x28_S4x64x30x30_000_000_110_110 h_S_ := rfl

/-- The word of all zero bits is the extended real zero. -/
theorem zero_word : (FloatOps.ofBits (F := Ideal) .f32 0x00000000#32 : Ideal .f32) = 0 := Ideal.ofBits_zero_f32

/-- The specification at an index given by its coordinates. -/
theorem G_ix4 (xp : SP.Idx → EReal) (w : SW.Idx → EReal) (n : Fin 4) (co : Fin 128) (i j : Fin 28) :
    G xp w (ix4 n co i j) = -(∑ kh : Fin 3, ∑ kw : Fin 3, ∑ ci : Fin 64, term xp w n co i j kh kw ci) := rfl

/-- A flat position co * 64 + ci splits back into its row co ... -/
theorem row_of_flat (co : Fin 128) (ci : Fin 64) : (co.val * 64 + ci.val) / 64 = co.val := by omega
/-- ... and its column ci. -/
theorem col_of_flat (co : Fin 128) (ci : Fin 64) : (co.val * 64 + ci.val) / 1 % 64 = ci.val := by omega

/-- A window row or column stays inside the padded extent. -/
theorem window_lt (i : Fin 28) (k : Fin 3) : i.val + k.val < 30 := by omega

/-- One summand: the absolute difference of the padded input read at an index whose coordinates are
    (n, ci, i + kh, j + kw) and the weight read at an index whose coordinates are (co, ci, kh, kw) is the
    specification's term. -/
theorem term_at (xp : SP.Idx → EReal) (w : SW.Idx → EReal) (n : Fin 4) (co : Fin 128) (i j : Fin 28) (kh kw : Fin 3)
    (ci : Fin 64) (I1 : SP.Idx) (I2 : SW.Idx)
    (h10 : (I1 0).val = n.val) (h11 : (I1 1).val = ci.val) (h12 : (I1 2).val = i.val + kh.val)
    (h13 : (I1 3).val = j.val + kw.val)
    (h20 : (I2 0).val = co.val) (h21 : (I2 1).val = ci.val) (h22 : (I2 2).val = kh.val) (h23 : (I2 3).val = kw.val) :
    (FloatOps.hostAbsf (FloatOps.subf (xp I1 : Ideal .f32) (w I2)) : Ideal .f32) = term xp w n co i j kh kw ci := by
  have e1 : I1 = ix4 n ci ⟨i.val + kh.val, window_lt i kh⟩ ⟨j.val + kw.val, window_lt j kw⟩ := by
    funext a; refine Fin.ext ?_
    match a with
    | ⟨0, _⟩ => exact h10
    | ⟨1, _⟩ => exact h11
    | ⟨2, _⟩ => exact h12
    | ⟨3, _⟩ => exact h13
  have e2 : I2 = ix4 co ci kh kw := by
    funext a; refine Fin.ext ?_
    match a with
    | ⟨0, _⟩ => exact h20
    | ⟨1, _⟩ => exact h21
    | ⟨2, _⟩ => exact h22
    | ⟨3, _⟩ => exact h23
  subst e1; subst e2; rfl

/-- A coordinate of a window read: the offset 0 leaves the coordinate as it is, an offset k is added in front. -/
macro "window_coord" : tactic => `(tactic| first | rfl | exact Nat.add_comm _ _)

/-- What it means for a stage `T` of the reference to be tap (kh, kw): at every output index it is the sum over the
    channels of the specification's terms of that tap. -/
abbrev TapIs (T : (⟨S4x64x28x28, .f32⟩ : BufTy).Contents (Elt Ideal) → (⟨S128x64x3x3, .f32⟩ : BufTy).Contents (Elt Ideal) →
      (⟨S4x128x28x28, .f32⟩ : BufTy).Contents (Elt Ideal)) (kh kw : Fin 3) : Prop :=
  ∀ (x : (⟨S4x64x28x28, .f32⟩ : BufTy).Contents (Elt Ideal)) (w : (⟨S128x64x3x3, .f32⟩ : BufTy).Contents (Elt Ideal))
    (n : Fin 4) (co : Fin 128) (i j : Fin 28),
    T x w (ix4 n co i j) = ∑ ci : Fin 64, term (XP x) w n co i j kh kw ci

/-- One tap, read from its channel sum down to the padded input and the weight. The channel sum starts from the zero
    word; its summand at channel ci is the absolute value of a difference; the minuend goes back through two broadcasts
    and the window slice to the padded input at (n, ci, i + kh, j + kw); the subtrahend goes back through two
    broadcasts, the reshape of [128, 64, 1, 1] to [128, 64] (a flat position co * 64 + ci and back) and the
    weight's slice to the weight at (co, ci, kh, kw). The arguments name the stages' reads in that order. -/
macro "tap_read" sum:ident zero:ident abs:ident sub:ident xb2:ident xb1:ident xs:ident wb2:ident wb1:ident wr:ident ws:ident : tactic =>
  `(tactic| (
    intro x w n co i j
    rw [$sum:ident, $zero:ident, zero_word, zero_add]
    refine Finset.sum_congr rfl fun ci _ => ?_
    rw [$abs:ident, $sub:ident, $xb2:ident, $xb1:ident, $xs:ident, $wb2:ident, $wb1:ident, $wr:ident, $ws:ident]
    refine term_at (XP x) w n co i j _ _ ci _ _ ?_ ?_ ?_ ?_ (row_of_flat co ci) (col_of_flat co ci) ?_ ?_ <;> window_coord))

/-! The nine taps, in the reference's row-major order; each names its own stages' reads. -/

theorem tap_0_0 : TapIs (val_main_v11 (F := Ideal)) 0 0 := by
  tap_read val_main_v11_apply val_main_cst_0_apply val_main_v10_apply val_main_v9_apply val_main_v7_apply val_main_v5_apply val_main_v2_apply val_main_v8_apply val_main_v6_apply val_main_v4_apply val_main_v3_apply
theorem tap_0_1 : TapIs (val_main_v22 (F := Ideal)) 0 1 := by
  tap_read val_main_v22_apply val_main_cst_1_apply val_main_v21_apply val_main_v20_apply val_main_v18_apply val_main_v16_apply val_main_v13_apply val_main_v19_apply val_main_v17_apply val_main_v15_apply val_main_v14_apply
theorem tap_0_2 : TapIs (val_main_v33 (F := Ideal)) 0 2 := by
  tap_read val_main_v33_apply val_main_cst_2_apply val_main_v32_apply val_main_v31_apply val_main_v29_apply val_main_v27_apply val_main_v24_apply val_main_v30_apply val_main_v28_apply val_main_v26_apply val_main_v25_apply
theorem tap_1_0 : TapIs (val_main_v44 (F := Ideal)) 1 0 := by
  tap_read val_main_v44_apply val_main_cst_3_apply val_main_v43_apply val_main_v42_apply val_main_v40_apply val_main_v38_apply val_main_v35_apply val_main_v41_apply val_main_v39_apply val_main_v37_apply val_main_v36_apply
theorem tap_1_1 : TapIs (val_main_v55 (F := Ideal)) 1 1 := by
  tap_read val_main_v55_apply val_main_cst_4_apply val_main_v54_apply val_main_v53_apply val_main_v51_apply val_main_v49_apply val_main_v46_apply val_main_v52_apply val_main_v50_apply val_main_v48_apply val_main_v47_apply
theorem tap_1_2 : TapIs (val_main_v66 (F := Ideal)) 1 2 := by
  tap_read val_main_v66_apply val_main_cst_5_apply val_main_v65_apply val_main_v64_apply val_main_v62_apply val_main_v60_apply val_main_v57_apply val_main_v63_apply val_main_v61_apply val_main_v59_apply val_main_v58_apply
theorem tap_2_0 : TapIs (val_main_v77 (F := Ideal)) 2 0 := by
  tap_read val_main_v77_apply val_main_cst_6_apply val_main_v76_apply val_main_v75_apply val_main_v73_apply val_main_v71_apply val_main_v68_apply val_main_v74_apply val_main_v72_apply val_main_v70_apply val_main_v69_apply
theorem tap_2_1 : TapIs (val_main_v88 (F := Ideal)) 2 1 := by
  tap_read val_main_v88_apply val_main_cst_7_apply val_main_v87_apply val_main_v86_apply val_main_v84_apply val_main_v82_apply val_main_v79_apply val_main_v85_apply val_main_v83_apply val_main_v81_apply val_main_v80_apply
theorem tap_2_2 : TapIs (val_main_v99 (F := Ideal)) 2 2 := by
  tap_read val_main_v99_apply val_main_cst_8_apply val_main_v98_apply val_main_v97_apply val_main_v95_apply val_main_v93_apply val_main_v90_apply val_main_v96_apply val_main_v94_apply val_main_v92_apply val_main_v91_apply

/-- THE REFERENCE IS THE SPECIFICATION: the reference's last stage, minus the accumulator after the nine taps, is
    the specification of the padded input and the weight. The accumulator is zero plus the nine channel sums added
    in row-major order of the taps; the specification groups the same nine sums three by three. -/
theorem ref_eq_G (x : (⟨S4x64x28x28, .f32⟩ : BufTy).Contents (Elt Ideal)) (w : (⟨S128x64x3x3, .f32⟩ : BufTy).Contents (Elt Ideal)) :
    val_main_v101 (F := Ideal) x w = G (XP x) w := by
  funext q
  obtain ⟨n, co, i, j, rfl⟩ : ∃ (n : Fin 4) (co : Fin 128) (i j : Fin 28), q = ix4 n co i j :=
    ⟨q 0, q 1, q 2, q 3, eq_ix4 q⟩
  rw [val_main_v101_apply, val_main_v100_apply, val_main_v89_apply, val_main_v78_apply, val_main_v67_apply,
    val_main_v56_apply, val_main_v45_apply, val_main_v34_apply, val_main_v23_apply, val_main_v12_apply,
    val_main_v1_apply, val_main_cst_apply, zero_word,
    tap_0_0, tap_0_1, tap_0_2, tap_1_0, tap_1_1, tap_1_2, tap_2_0, tap_2_1, tap_2_2, G_ix4]
  simp only [Ideal.hostNegf_def, Ideal.negf_def, Ideal.addf_def, zero_add, Fin.sum_univ_three, add_assoc]

/-- The same for the run's result term: on every device the reference's result buffer ends at the specification of
    the padded first argument and the second argument. -/
theorem res_eq_G (m : (ℓ : Loc nD τ sig) → Buf (Elt Ideal) ℓ) (c : Dev nD) :
    Cert.ReferenceIdeal.Value.res_main_v101 (F := Ideal) m c
      = G (XP (m ((c.tc : Thread nD τ).loc main_arg0))) (m ((c.tc : Thread nD τ).loc main_arg1)) :=
  (val_main_v101_eq (F := Ideal) m c).trans (ref_eq_G _ _)

end Cert.AdderRef

end
-- ==== Proof.lean ====
/-
  An L1-distance "convolution": for an input `x : [4, 64, 28, 28]` and a weight `w : [128, 64, 3, 3]`,

      out (n, co, i, j) = - ∑ ci < 64, ∑ kh < 3, ∑ kw < 3, | xp (n, ci, i + kh, j + kw) - w (co, ci, kh, kw) |,

  `xp` the input with a border of zeros one wide around its last two axes.

  The kernel program lays the nine shifted 28 × 28 windows of the padded input side by side (an array
  `[4, 64, 9, 784]`), exchanges the weight's first two axes and flattens its taps (`[64, 128, 9]`), and runs a kernel
  over a grid of four points, one per sample: the point's output block `[128, 784]` is zero-filled, then for each of the
  64 channels, in a counted loop, the block is loaded back, the channel's nine distances are added to it and it is
  stored, and at the end it is negated; a last host operation reshapes `[4, 128, 784]` to `[4, 128, 28, 28]`.  The
  reference adds, tap by tap, the sum over the channels of the distances, and negates.

  The three frames: each kernel program's is its run around the region — the body run once on any staging buffers, the
  loop by its invariant, the output block covered by its whole-block stores —, the reference's its run as a line of
  host operations.  The idealization rewrote nothing, so it preserves the program trivially.  At the ideal instance
  both results are the specification's function `G` of the padded input and the weight: the kernel's by reading its
  stores back through the loop and the host operations around the region at an index, the reference's operation by
  operation; the two orders of summation agree because addition on the extended reals is commutative and associative
  (no finiteness of the inputs is used).
-/
import proofs.«133957_j41729902248401_2_alg».proof.Defs
import proofs.«133957_j41729902248401_2_alg».proof.Proof.Gen.Kernel
import proofs.«133957_j41729902248401_2_alg».proof.Proof.Gen.KernelIdeal
import proofs.«133957_j41729902248401_2_alg».proof.Proof.Gen.ReferenceIdeal
import proofs.«133957_j41729902248401_2_alg».proof.Proof.Gen.Pre_finite_inputs
import proofs.«133957_j41729902248401_2_alg».proof.Proof.FrameK
import proofs.«133957_j41729902248401_2_alg».proof.Proof.BridgeI
import proofs.«133957_j41729902248401_2_alg».proof.Proof.RefIsSpec
import Idealize.ShloMosaic.Adequacy
import Idealize.ShloMosaic.Init

noncomputable section

namespace Cert.Proof

open Idealize.ShloMosaic Idealize.ShloMosaic.TcCoe Idealize.SL.Sem

/-- The kernel program as printed runs to the end and leaves its arguments unchanged. -/
theorem frame_k : Cert.frame_Kernel (hKernel := Cert.Kernel.Gen.facts) (hPre_finite_inputs := Cert.Pre_finite_inputs.Gen.facts) :=
  fun m ρ _ => Cert.Kernel.Frame.frame m ρ

/-- So does its idealization. -/
theorem frame_ki : Cert.frame_KernelIdeal (hKernelIdeal := Cert.KernelIdeal.Gen.facts) (hPre_finite_inputs := Cert.Pre_finite_inputs.Gen.facts) :=
  fun m ρ _ => Cert.KernelIdeal.Frame.frame m ρ

/-- And the idealized reference: its run as a line of host operations, the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- At the ideal instance both programs end with the specification's function of the padded input and the weight. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.AdderSpec.G (Cert.AdderHost.XP (F := Ideal) (fun b => m (c, b)))
      (m ((c.tc : Thread Cert.KernelIdeal.nD Cert.KernelIdeal.τ).loc Cert.KernelIdeal.main_arg1)), ?_, ?_⟩
  · exact (θ_run Cert.KernelIdeal.defs _ _).mono
      (fun _ h c => ⟨(h c).1.trans (Cert.KernelIdeal.Frame.result_eq_G m c), (h c).2⟩)
      (Cert.KernelIdeal.Frame.run_value (F := Ideal) m ρ)
  · refine (θ_run Cert.ReferenceIdeal.defs _ _).mono (fun _ h c => ⟨(h c).1.trans ?_, (h c).2⟩)
      (Cert.ReferenceIdeal.Value.run (F := Ideal) m' ρ')
    rw [Cert.AdderRef.res_eq_G, (hagree c).1, (hagree c).2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
